-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S2304x768 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S8192x768 : Shape := ⟨2, ![8192, 768]⟩
abbrev S8192x2304 : Shape := ⟨2, ![8192, 2304]⟩
abbrev S1024x768 : Shape := ⟨2, ![1024, 768]⟩
abbrev S1024x2304 : Shape := ⟨2, ![1024, 2304]⟩
abbrev S4x2048x2304 : Shape := ⟨3, ![4, 2048, 2304]⟩
abbrev S1x768 : Shape := ⟨2, ![1, 768]⟩
abbrev S1x1024x768 : Shape := ⟨3, ![1, 1024, 768]⟩
abbrev S1x2048x768 : Shape := ⟨3, ![1, 2048, 768]⟩
abbrev S2048x768 : Shape := ⟨2, ![2048, 768]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S8192x768, .bf16⟩
  | .hbm, ⟨6, _⟩ => ⟨S2304x768, .bf16⟩
  | .hbm, ⟨7, _⟩ => ⟨S8192x2304, .bf16⟩
  | .hbm, ⟨8, _⟩ => ⟨S4x2048x2304, .bf16⟩
  | .hbm, ⟨9, _⟩ => ⟨S768x768, .bf16⟩
  | .hbm, ⟨10, _⟩ => ⟨S1x768, .f32⟩
  | .hbm, ⟨11, _⟩ => ⟨S4x2048x768, .f32⟩
  | .local _ .vmem, ⟨0, _⟩ => ⟨S1024x768, .bf16⟩
  | .local _ .vmem, ⟨1, _⟩ => ⟨S1024x768, .bf16⟩
  | .local _ .vmem, ⟨2, _⟩ => ⟨S2304x768, .bf16⟩
  | .local _ .vmem, ⟨3, _⟩ => ⟨S1024x2304, .bf16⟩
  | .local _ .vmem, ⟨4, _⟩ => ⟨S1024x2304, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x2048x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x2048x768, .bf16⟩
  | .local _ .vmem, ⟨11, _⟩ => ⟨S768x768, .bf16⟩
  | .local _ .vmem, ⟨12, _⟩ => ⟨S1x768, .f32⟩
  | .local _ .vmem, ⟨13, _⟩ => ⟨S1x1024x768, .f32⟩
  | .local _ .vmem, ⟨14, _⟩ => ⟨S1x1024x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x768_S8192x768 : S4x2048x768.ShapeCasts S8192x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  shapeCasts_S8192x2304_S4x2048x2304 : S8192x2304.ShapeCasts S4x2048x2304
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S1024x768_o0_0_S1024x64 : S1024x768.Slices ![0, 0] S1024x64
  slices_S2048x768_o0_0_S2048x64 : S2048x768.Slices ![0, 0] S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  slices_S1024x768_o0_64_S1024x64 : S1024x768.Slices ![0, 64] S1024x64
  slices_S2048x768_o0_64_S2048x64 : S2048x768.Slices ![0, 64] S2048x64
  slices_S1024x768_o0_128_S1024x64 : S1024x768.Slices ![0, 128] S1024x64
  slices_S2048x768_o0_128_S2048x64 : S2048x768.Slices ![0, 128] S2048x64
  slices_S1024x768_o0_192_S1024x64 : S1024x768.Slices ![0, 192] S1024x64
  slices_S2048x768_o0_192_S2048x64 : S2048x768.Slices ![0, 192] S2048x64
  slices_S1024x768_o0_256_S1024x64 : S1024x768.Slices ![0, 256] S1024x64
  slices_S2048x768_o0_256_S2048x64 : S2048x768.Slices ![0, 256] S2048x64
  slices_S1024x768_o0_320_S1024x64 : S1024x768.Slices ![0, 320] S1024x64
  slices_S2048x768_o0_320_S2048x64 : S2048x768.Slices ![0, 320] S2048x64
  slices_S1024x768_o0_384_S1024x64 : S1024x768.Slices ![0, 384] S1024x64
  slices_S2048x768_o0_384_S2048x64 : S2048x768.Slices ![0, 384] S2048x64
  slices_S1024x768_o0_448_S1024x64 : S1024x768.Slices ![0, 448] S1024x64
  slices_S2048x768_o0_448_S2048x64 : S2048x768.Slices ![0, 448] S2048x64
  slices_S1024x768_o0_512_S1024x64 : S1024x768.Slices ![0, 512] S1024x64
  slices_S2048x768_o0_512_S2048x64 : S2048x768.Slices ![0, 512] S2048x64
  slices_S1024x768_o0_576_S1024x64 : S1024x768.Slices ![0, 576] S1024x64
  slices_S2048x768_o0_576_S2048x64 : S2048x768.Slices ![0, 576] S2048x64
  slices_S1024x768_o0_640_S1024x64 : S1024x768.Slices ![0, 640] S1024x64
  slices_S2048x768_o0_640_S2048x64 : S2048x768.Slices ![0, 640] S2048x64
  slices_S1024x768_o0_704_S1024x64 : S1024x768.Slices ![0, 704] S1024x64
  slices_S2048x768_o0_704_S2048x64 : S2048x768.Slices ![0, 704] S2048x64
  concatenates_S1024x64_S1024x64_S1024x64_S1024x64_S1024x64_S1024x64_S1024x64_S1024x64_S1024x64_S1024x64_S1024x64_S1024x64_S1024x768_d1 : Shape.Concatenates [S1024x64, S1024x64, S1024x64, S1024x64, S1024x64, S1024x64, S1024x64, S1024x64, S1024x64, S1024x64, S1024x64, S1024x64] S1024x768 1
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S2304x768_S1024x2304_1_1_0_0_n_n_wf : DotDims.WF S1024x768 S2304x768 S1024x2304 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2304.size a ≤ S8192x2304.size a
  hwx0_2 : ∀ i : grid0.Coords, EltTy.bits .bf16 = 32 ∨ (Rect.block (s := S8192x2304) S1024x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S4x2048x2304.size a
  hwx1_0 : ∀ i : grid1.Coords, EltTy.bits .bf16 = 32 ∨ (Rect.block (s := S4x2048x2304) S1x1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S4x2048x2304.size a
  hwx1_1 : ∀ i : grid1.Coords, EltTy.bits .bf16 = 32 ∨ (Rect.block (s := S4x2048x2304) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S4x2048x2304.size a
  hwx1_2 : ∀ i : grid1.Coords, EltTy.bits .bf16 = 32 ∨ (Rect.block (s := S4x2048x2304) S1x2048x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x768.size a ≤ S4x2048x768.size a
  hwx1_5 : ∀ i : grid1.Coords, EltTy.bits .f32 = 32 ∨ (Rect.block (s := S4x2048x768) S1x1024x768.size (cc1_transform_5 i) (hinb1_5 i)).WholeWords (EltTy.packing .f32)

variable [Facts₀]

def dot_S1024x768_S2304x768_S1024x2304_1_1_0_0_n_n : DotDims S1024x768 S2304x768 S1024x2304 where
  lhsContracting := [1]
  rhsContracting := [1]
  lhsNonContracting := [0]
  rhsNonContracting := [0]
  lhsBatch := []
  rhsBatch := []
  wf := dot_S1024x768_S2304x768_S1024x2304_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_v1) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S4x2048x2304 : Shape := ⟨3, ![4, 2048, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x3x12x64, .f32⟩
  | .hbm, ⟨6, _⟩ => ⟨S3x4x12x2048x64, .f32⟩
  | .hbm, ⟨7, _⟩ => ⟨S1x4x12x2048x64, .f32⟩
  | .hbm, ⟨8, _⟩ => ⟨S4x12x2048x64, .f32⟩
  | .hbm, ⟨9, _⟩ => ⟨S1x4x12x2048x64, .f32⟩
  | .hbm, ⟨10, _⟩ => ⟨S4x12x2048x64, .f32⟩
  | .hbm, ⟨11, _⟩ => ⟨S1x4x12x2048x64, .f32⟩
  | .hbm, ⟨12, _⟩ => ⟨S4x12x2048x64, .f32⟩
  | .hbm, ⟨13, _⟩ => ⟨S4x12x2048x2048, .f32⟩
  | .hbm, ⟨14, _⟩ => ⟨S_, .f32⟩
  | .hbm, ⟨15, _⟩ => ⟨S4x12x2048x2048, .f32⟩
  | .hbm, ⟨16, _⟩ => ⟨S4x12x2048x2048, .f32⟩
  | .hbm, ⟨17, _⟩ => ⟨S_, .f32⟩
  | .hbm, ⟨18, _⟩ => ⟨S4x12x2048, .f32⟩
  | .hbm, ⟨19, _⟩ => ⟨S_, .f32⟩
  | .hbm, ⟨20, _⟩ => ⟨S4x12x2048, .f32⟩
  | .hbm, ⟨21, _⟩ => ⟨S4x12x2048, .f32⟩
  | .hbm, ⟨22, _⟩ => ⟨S4x12x2048x1, .f32⟩
  | .hbm, ⟨23, _⟩ => ⟨S4x12x2048x2048, .f32⟩
  | .hbm, ⟨24, _⟩ => ⟨S4x12x2048x2048, .f32⟩
  | .hbm, ⟨25, _⟩ => ⟨S4x12x2048x2048, .f32⟩
  | .hbm, ⟨26, _⟩ => ⟨S_, .f32⟩
  | .hbm, ⟨27, _⟩ => ⟨S4x12x2048, .f32⟩
  | .hbm, ⟨28, _⟩ => ⟨S4x12x2048x1, .f32⟩
  | .hbm, ⟨29, _⟩ => ⟨S4x12x2048x2048, .f32⟩
  | .hbm, ⟨30, _⟩ => ⟨S4x12x2048x2048, .f32⟩
  | .hbm, ⟨31, _⟩ => ⟨S4x12x2048x64, .f32⟩
  | .hbm, ⟨32, _⟩ => ⟨S4x2048x12x64, .f32⟩
  | .hbm, ⟨33, _⟩ => ⟨S4x2048x768, .f32⟩
  | .hbm, ⟨34, _⟩ => ⟨S4x2048x768, .f32⟩
  | .hbm, ⟨35, _⟩ => ⟨S1x1x768, .f32⟩
  | .hbm, ⟨36, _⟩ => ⟨S4x2048x768, .f32⟩
  | .hbm, ⟨37, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.BodyValI.lean ====
/-
  What each of the two kernels stores into its output block, as one pure function of the blocks it loads, at any
  float instance.

  The projection kernel stores the product of its row block with the transposed weight block.  The attention kernel's
  stored value is assembled from the pieces its text names in order: the three loaded blocks re-laid as matrices, then
  for each of the twelve heads the head's output (logits, shifted exponentials, their sum, the weighted values, the
  reciprocal), the heads concatenated, multiplied by the projection weights, and the bias added.
-/
import proofs.«149045_j6854767804979_2_alg».proof.Proof.Gen.KernelIdeal.Skeleton

set_option synthInstance.maxSize 4096

noncomputable section

namespace Cert.KernelIdeal.Body

open Idealize.ShloMosaic Idealize.SL.Sem Cert.KernelIdeal Cert.KernelIdeal.Gen

variable {F : FTy → Type} [FloatOps F]

/-- The projection kernel's stored block from its two loaded blocks. -/
def val0 (x0 : Vec F S1024x768 .bf16) (x1 : Vec F S2304x768 .bf16) : FVec F S1024x2304 .bf16 :=
  k0_pay1 x0 x1

/-- The attention kernel's stored block from its five loaded blocks: the query rows `v0`, the keys `v2`, the values
    `v4`, the projection weights `v247` and the bias row `v250`. -/
def val1 (v0 : Vec F S1x1024x768 .bf16) (v2 : Vec F S1x2048x768 .bf16) (v4 : Vec F S1x2048x768 .bf16)
    (v247 : Vec F S768x768 .bf16) (v250 : Vec F S1x768 .f32) : FVec F S1x1024x768 .f32 :=
  have v1 : FVec F S1024x768 .bf16 := k1_pay4 v0
  have v3 : FVec F S2048x768 .bf16 := k1_pay5 v2
  have v5 : FVec F S2048x768 .bf16 := k1_pay6 v4
  have v25 : FVec F S1024x64 .bf16 := k1_pay7 v0 v2 v4
  have v28 : FVec F S2048x64 .bf16 := k1_pay8 v4
  have v36 : FVec F S1024x2048 .f32 := k1_pay9 v0 v2
  have v38 : FVec F S1024x1 .f32 := k1_pay10 v0 v2
  have v45 : FVec F S1024x64 .bf16 := k1_pay11 v28 v36 v38
  have v65 : FVec F S1024x64 .bf16 := k1_pay12 v1 v3 v5
  have v84 : FVec F S1024x64 .f32 := k1_pay13 v1 v3 v5
  have v85 : FVec F S1024x64 .bf16 := k1_pay14 v84
  have v105 : FVec F S1024x64 .bf16 := k1_pay15 v1 v3 v5
  have v125 : FVec F S1024x64 .bf16 := k1_pay16 v1 v3 v5
  have v128 : FVec F S2048x64 .bf16 := k1_pay17 v5
  have v129 : FVec F S1024x2048 .f32 := k1_pay18 v1 v3
  have v130 : FVec F S1024x2048 .f32 := k1_pay19 (F := F)
  have v145 : FVec F S1024x64 .bf16 := k1_pay20 v128 v129 v130
  have v165 : FVec F S1024x64 .bf16 := k1_pay21 v1 v3 v5
  have v168 : FVec F S2048x64 .bf16 := k1_pay22 v5
  have v176 : FVec F S1024x2048 .f32 := k1_pay23 v1 v3
  have v185 : FVec F S1024x64 .bf16 := k1_pay24 v168 v176
  have v205 : FVec F S1024x64 .bf16 := k1_pay25 v1 v3 v5
  have v220 : FVec F S1024x64 .f32 := k1_pay27 v1 v3 v5
  have v222 : FVec F S1024x1 .f32 := k1_pay28 v1 v3
  have v236 : FVec F S1024x2048 .f32 := k1_pay1 v1 v3
  have v240 : FVec F S1024x64 .f32 := k1_pay2 v5 v236
  k1_pay3 v25 v45 v65 v85 v105 v125 v145 v165 v185 v205 v220 v222 v236 v240 v247 v250

end Cert.KernelIdeal.Body

end
-- ==== Proof.FrameBody0I.lean ====
/-
  The two kernels' bodies, each run once on whole staging buffers.

  The projection kernel loads its row block and the weight block and stores one block; the attention kernel loads the
  query rows, the keys, the values, the projection weights and the bias row, and stores one block.  In both, every load
  and the single store cover a whole buffer, so after the body the output's staging buffer holds exactly the stored
  value, a pure function of the loaded blocks, and the inputs' buffers are unchanged.  From this follow the proof data
  of each pipeline (what every window's staging buffer holds after the body at every grid point) and the body
  obligation at a generic point.  The entry contents of the core's buffers are a parameter `V`.

  In the second pipeline three input windows read ONE array (the joint projection, through its query, key and value
  thirds), so the array is held at three shares that together make the full share.
-/
import proofs.«149045_j6854767804979_2_alg».proof.Proof.Gen.KernelIdeal.Launch
import proofs.«149045_j6854767804979_2_alg».proof.Proof.Gen.KernelIdeal.Skeleton
import proofs.«149045_j6854767804979_2_alg».proof.Proof.Gen.KernelIdeal.Points
import proofs.«149045_j6854767804979_2_alg».proof.Proof.BodyValI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection kernel (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles of the three accesses. -/
abbrev r0_0 : Rect S1024x768 := Rect.unit (s := S1024x768) ![0, 0] S1024x768.size inb_S1024x768_S1024x768_0_0
abbrev r0_1 : Rect S2304x768 := Rect.unit (s := S2304x768) ![0, 0] S2304x768.size inb_S2304x768_S2304x768_0_0
abbrev r0_2 : Rect S1024x2304 := Rect.unit (s := S1024x2304) ![0, 0] S1024x2304.size inb_S1024x2304_S1024x2304_0_0

/-- The output window's staging buffer after the body: its one store, covering the buffer. -/
def out0_2 (x0 : Vec F S1024x768 .bf16) (x1 : Vec F S2304x768 .bf16) : Vec F S1024x2304 .bf16 :=
  View.canon [⟨r0_2, val0 (View.ld x0 r0_0) (View.ld x1 r0_1)⟩]

theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

set_option maxHeartbeats 1000000 in
/-- The body on whole staging buffers: the inputs' at contents `x0`, `x1`, the output's at anything, runs to the
    continuation with the inputs' unchanged and the output's at `out0_2 x0 x1`. -/
theorem sound_kernel0 (c : Dev nD) (E : Set ℕ) (i : grid0.Coords) (arg1 : Memref sig .tc .vmem S1024x768 .bf16) (harg1 : arg1.IsWhole)
    (arg2 : Memref sig .tc .vmem S2304x768 .bf16) (harg2 : arg2.IsWhole) (arg3 : Memref sig .tc .vmem S1024x2304 .bf16) (harg3 : arg3.IsWhole)
    (x0 : Vec F S1024x768 .bf16) (x1 : Vec F S2304x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameBody1I.lean ====
/-
  The attention kernel's body run once on whole staging buffers, and the proof data of its pipeline.

  The body loads the query rows, the keys, the values, the projection weights and the bias row, each load covering
  its whole buffer, and stores one block covering the output's buffer; so after the body the output's staging buffer
  holds exactly the stored value, a pure function of the five loaded blocks, and the inputs' buffers are unchanged.
  Three input windows read ONE array (the joint projection, through its query, key and value thirds): the proof data
  hold that array at three shares that together make the full share.
-/
import proofs.«149045_j6854767804979_2_alg».proof.Proof.Gen.KernelIdeal.Launch
import proofs.«149045_j6854767804979_2_alg».proof.Proof.Gen.KernelIdeal.Skeleton
import proofs.«149045_j6854767804979_2_alg».proof.Proof.Gen.KernelIdeal.Points
import proofs.«149045_j6854767804979_2_alg».proof.Proof.BodyValI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles of the accesses. -/
abbrev r1_q : Rect S1x1024x768 := Rect.unit (s := S1x1024x768) ![0, 0, 0] S1x1024x768.size inb_S1x1024x768_S1x1024x768_0_0_0
abbrev r1_kv : Rect S1x2048x768 := Rect.unit (s := S1x2048x768) ![0, 0, 0] S1x2048x768.size inb_S1x2048x768_S1x2048x768_0_0_0
abbrev r1_w : Rect S768x768 := Rect.unit (s := S768x768) ![0, 0] S768x768.size inb_S768x768_S768x768_0_0
abbrev r1_b : Rect S1x768 := Rect.unit (s := S1x768) ![0, 0] S1x768.size inb_S1x768_S1x768_0_0

/-- The output window's staging buffer after the body: its one store, covering the buffer. -/
def out1_5 (x0 : Vec F S1x1024x768 .bf16) (x1 : Vec F S1x2048x768 .bf16) (x2 : Vec F S1x2048x768 .bf16)
    (x3 : Vec F S768x768 .bf16) (x4 : Vec F S1x768 .f32) : Vec F S1x1024x768 .f32 :=
  View.canon [⟨r1_q, val1 (View.ld x0 r1_q) (View.ld x1 r1_kv) (View.ld x2 r1_kv) (View.ld x3 r1_w) (View.ld x4 r1_b)⟩]

theorem cover1_5 (p0 : Vec F S1x1024x768 .f32) (y : S1x1024x768.Idx) :
    ∃ pc ∈ ([⟨r1_q, p0⟩] : List (View.Piece (Elt F) S1x1024x768 .f32)), y ∈ pc.1.set :=
  View.cover_of_tiled [⟨r1_q, p0⟩] S1x1024x768.size (by rfl) y

set_option maxHeartbeats 4000000 in
/-- The body on whole staging buffers: the inputs' at contents `x0 … x4`, the output's at anything, runs to the
    continuation with the inputs' unchanged and the output's at `out1_5 x0 x1 x2 x3 x4`. -/
theorem sound_kernel1 (c : Dev nD) (E : Set ℕ) (i : grid1.Coords) (arg2 : Memref sig .tc .vmem S1x1024x768 .bf16) (harg2 : arg2.IsWhole)
    (arg3 : Memref sig .tc .vmem S1x2048x768 .bf16) (harg3 : arg3.IsWhole) (arg4 : Memref sig .tc .vmem S1x2048x768 .bf16) (harg4 : arg4.IsWhole)
    (arg5 : Memref sig .tc .vmem S768x768 .bf16) (harg5 : arg5.IsWhole) (arg6 : Memref sig .tc .vmem S1x768 .f32) (harg6 : arg6.IsWhole)
    (arg7 : Memref sig .tc .vmem S1x1024x768 .f32) (harg7 : arg7.IsWhole)
    (x0 : Vec F S1x1024x768 .bf16) (x1 : Vec F S1x2048x768 .bf16) (x2 : Vec F S1x2048x768 .bf16) (x3 : Vec F S768x768 .bf16) (x4 : Vec F S1x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_proj_kernel i arg2 harg2 arg3 harg3 arg4 harg4 arg5 harg5 arg6 harg6 arg7 harg7) K := by
  simp only [cc1__attn_proj_kernel_eq_skeleton]; unfold cc1__attn_proj_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The shares at which the input windows hold their arrays: the three windows on the joint projection hold it at the
    left half, and the two halves of the right half, of the full share. -/
def q1 : Fin cfg1.W → PosShare TreeShare := fun w => match w with
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameRunI.lean ====
/-
  The run of the whole program: the host lines, the projection kernel's region, the host lines between, the
  attention kernel's region.

  The contents of the core's buffers are followed from the launch memory through the four stretches: a host stretch
  applies its operations; a region leaves every buffer as it found it except its output array, which ends holding what
  the grid's write-backs leave.  No stretch writes an argument array, so the arguments end as launched, and the result
  array ends holding the second region's write-backs.

  In the second region three input windows read one array.  Entering the region the array, held whole, is dealt to the
  three windows by splitting its full share into a left half and the two halves of the right half; leaving the region
  the three shares, all at the unchanged contents, are joined back.
-/
import proofs.«149045_j6854767804979_2_alg».proof.Proof.FrameBody0I
import proofs.«149045_j6854767804979_2_alg».proof.Proof.FrameBody1I
import proofs.«149045_j6854767804979_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-! ## A core's unscoped buffers, one by one -/

/-- The twelve arrays of the program on core `c`, each whole at the full share at contents `V`. -/
theorem unscopedBufs_chain (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_v0) ↦{fullShare} V main_v0) ∗ (((c : Thread nD τ).loc main_v1) ↦{fullShare} V main_v1)
        ∗ (((c : Thread nD τ).loc main_v2) ↦{fullShare} V main_v2) ∗ (((c : Thread nD τ).loc main_v3) ↦{fullShare} V main_v3)
        ∗ (((c : Thread nD τ).loc main_v4) ↦{fullShare} V main_v4) ∗ (((c : Thread nD τ).loc main_v5) ↦{fullShare} V main_v5)
        ∗ (((c : Thread nD τ).loc main_v6) ↦{fullShare} V main_v6) ∗ (((c : Thread nD τ).loc main_v7) ↦{fullShare} V main_v7)) := by
  unfold unscopedBufs
  exact bigSep_eq_bigSepL_of_eq [main_arg0, main_arg1, main_arg2, main_arg3, main_v0, main_v1, main_v2, main_v3, main_v4, main_v5, main_v6, main_v7]
    (by decide) (by decide) _

variable (V : (c : Dev nD) → (b : Ref sig .tc) → Buf (Elt F) ((c : Thread nD τ).loc b))

/-- The second pipeline's arrays at contents `Fw`, window by window, each at its share. -/
theorem arrays1_chain (c : Dev nD) (Fw : (w : Fin cfg1.W) → Buf (Elt F) ((cfg1.win w).arr.view.loc (c.tc : Thread nD τ))) :
    ((dat1 V c).arrays Fw : sProp 𝕄)
      = iprop((((c : Thread nD τ).loc main_v4) ↦{fullShare.left} Fw 0) ∗ (((c : Thread nD τ).loc main_v4) ↦{fullShare.right.left} Fw 1)
        ∗ (((c : Thread nD τ).loc main_v4) ↦{fullShare.right.right} Fw 2) ∗ (((c : Thread nD τ).loc main_v5) ↦{fullShare} Fw 3)
        ∗ (((c : Thread nD τ).loc main_v6) ↦{fullShare} Fw 4) ∗ (((c : Thread nD τ).loc main_v7) ↦{fullShare} Fw 5)) := by
  unfold Dat.arrays
  rw [bigSep_W1, (arr_whole1 0).set_eq_univ, (arr_whole1 3).set_eq_univ,
    (arr_whole1 4).set_eq_univ, (arr_whole1 5).set_eq_univ]
  rfl

/-! ## Entering and leaving the second region: one array, three windows -/

/-- ENTRY. The core's arrays at `V` are the second pipeline's arrays at their entry contents — the joint projection
    dealt to its three windows by halving its full share twice — and the arrays no window names. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs_chain, arrays1_chain, unscopedRest1_eq]
  iintro ⟨Ha0, Ha1, Ha2, Ha3, Hv0, Hv1, Hv2, Hv3, Hv4, Hv5, Hv6, Hv7⟩
  ihave H4 := (pointsTo_share (PosShare.mem_left_op_right fullShare)).1 $$ Hv4
  icases H4 with ⟨H4L, H4R⟩
  ihave H4R' := (pointsTo_share (PosShare.mem_left_op_right fullShare.right)).1 $$ H4R
  icases H4R' with ⟨H4RL, H4RR⟩
  isplitl [H4L H4RL H4RR Hv5 Hv6 Hv7]
  · isplitl [H4L]; · iexact H4L
    isplitl [H4RL]; · iexact H4RL
    isplitl [H4RR]; · iexact H4RR
    isplitl [Hv5]; · iexact Hv5
    isplitl [Hv6]; · iexact Hv6
    iexact Hv7
  isplitl [Ha0]; · iexact Ha0
  isplitl [Ha1]; · iexact Ha1
  isplitl [Ha2]; · iexact Ha2
  isplitl [Ha3]; · iexact Ha3
  isplitl [Hv0]; · iexact Hv0
  isplitl [Hv1]; · iexact Hv1
  isplitl [Hv2]; · iexact Hv2
  iexact Hv3

/-- EXIT. The second pipeline's arrays at their final contents — the inputs unchanged, so the three shares of the
    joint projection join back — and the arrays no window names make the core's arrays at any contents `V'` that has
    the result array at what the write-backs leave and agrees with `V` elsewhere. -/
theorem exit1 (c : Dev nD) (V' : (b : Ref sig .tc) → Buf (Elt F) ((c : Thread nD τ).loc b))
    (hne : ∀ b : Ref sig .tc, b ≠ main_v7 → V' b = V c b) (h7 : V' main_v7 = (dat1 V c).arrAt 5 cfg1.N) :
    iprop((dat1 V c).arrays ((dat1 V c).arrAt · cfg1.N)
          ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [unscopedBufs_chain, arrays1_chain, unscopedRest1_eq,
    hne main_arg0 (by decide), hne main_arg1 (by decide), hne main_arg2 (by decide), hne main_arg3 (by decide),
    hne main_v0 (by decide), hne main_v1 (by decide), hne main_v2 (by decide), hne main_v3 (by decide),
    hne main_v4 (by decide), hne main_v5 (by decide), hne main_v6 (by decide), h7,
    show (dat1 V c).arrAt 0 cfg1.N = V c main_v4 from ((dat1 V c).arrAt_in 0 rfl _).trans (A_eq1 V c 0),
    show (dat1 V c).arrAt 1 cfg1.N = V c main_v4 from ((dat1 V c).arrAt_in 1 rfl _).trans (A_eq1 V c 1),
    show (dat1 V c).arrAt 2 cfg1.N = V c main_v4 from ((dat1 V c).arrAt_in 2 rfl _).trans (A_eq1 V c 2),
    show (dat1 V c).arrAt 3 cfg1.N = V c main_v5 from ((dat1 V c).arrAt_in 3 rfl _).trans (A_eq1 V c 3),
    show (dat1 V c).arrAt 4 cfg1.N = V c main_v6 from ((dat1 V c).arrAt_in 4 rfl _).trans (A_eq1 V c 4)]
  iintro ⟨⟨H4L, H4RL, H4RR, Hv5, Hv6, Hv7⟩, Ha0, Ha1, Ha2, Ha3, Hv0, Hv1, Hv2, Hv3⟩
  ihave H4R := (pointsTo_share (PosShare.mem_left_op_right fullShare.right)).2 $$ [H4RL H4RR]
  · isplitl [H4RL]; · iexact H4RL
    iexact H4RR
  ihave Hv4 := (pointsTo_share (PosShare.mem_left_op_right fullShare)).2 $$ [H4L H4R]
  · isplitl [H4L]; · iexact H4L
    iexact H4R
  isplitl [Ha0]; · iexact Ha0
  isplitl [Ha1]; · iexact Ha1
  isplitl [Ha2]; · iexact Ha2
  isplitl [Ha3]; · iexact Ha3
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  iexact Hv7

/-! ## The buffers' contents at each boundary -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the first host lines (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its output array at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host lines between the regions (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the result array at what the write-backs leave, every other buffer as entered. -/
def W4 (c : Dev nD) : Valuation τ sig (Elt F) :=
  Function.update (W3 m c) main_v7 ((dat1 (V3 m) c).arrAt 5 cfg1.N)
abbrev V4 : (c : Dev nD) → (b : Ref sig .tc) → Buf (Elt F) ((c : Thread nD τ).loc b) := fun c b => W4 m c b
theorem W4_v7 (c : Dev nD) : V4 m c main_v7 = (dat1 (V3 m) c).arrAt 5 cfg1.N := by
  show W4 m c (Proc.devRef .tc main_v7) = _
  unfold W4; exact Function.update_self _ _ _
theorem W4_of_ne (c : Dev nD) (b : Ref sig .tc) (h : b ≠ main_v7) : V4 m c b = V3 m c b := by
  show W4 m c (Proc.devRef .tc b) = W3 m c (Proc.devRef .tc b)
  unfold W4
  exact Function.update_of_ne (StableHlo.devRef_ne_of_ne h : (Proc.devRef .tc b : DevRef τ sig) ≠ Proc.devRef .tc main_v7) _ _

/-- A buffer that no host line writes and that is neither region's output ends as launched. -/
theorem W4_kept (c : Dev nD) (b : Ref sig .tc) (h4 : b ≠ main_v7) (h1 : b ∉ hostOps1_W) (h2 : ∀ w, Pipeline.arrRef spec0 w ≠ b)
    (h0 : b ∉ hostOps0_W) : W4 m c (Proc.devRef .tc b) = m ((c : Thread nD τ).loc b) :=
  (W4_of_ne m c b h4).trans <| (StableHlo.after_of_writes_sub hostOps1 _ hostOps1_writes h1).trans <|
    (W2_of_ne m c b h2).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every array at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every array at `W3`, left at `W4`; its three windows on the joint projection
    share that array (`entry1`, `exit1`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) :=
      exit1 (V3 m) c (V4 m c) (W4_of_ne m c) (W4_v7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has each unscoped buffer at the last boundary's contents: the result array at what
    the second region's write-backs leave, the argument arrays as launched. -/
theorem run_main : θ_run defs (onTc (τ := τ) (main (F := F))) ⟨m, fun _ => 0, ρ⟩ (fun r => ∀ c : Dev nD,
      r.2.mem ((c.tc : Thread nD τ).loc main_v7) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_v7 m c),
       (h c _ (mem_uc main_arg0 (by decide))).trans (W4_kept m c main_arg0 (by decide) (by decide) (by decide) (by decide)),
       (h c _ (mem_uc main_arg1 (by decide))).trans (W4_kept m c main_arg1 (by decide) (by decide) (by decide) (by decide)),
       (h c _ (mem_uc main_arg2 (by decide))).trans (W4_kept m c main_arg2 (by decide) (by decide) (by decide) (by decide)),
       (h c _ (mem_uc main_arg3 (by decide))).trans (W4_kept m c main_arg3 (by decide) (by decide) (by decide) (by decide))⟩)

end Cert.KernelIdeal.Fr

end
-- ==== Proof.BodyValB.lean ====
/-
  What each of the two kernels stores into its output block, as one pure function of the blocks it loads, at any
  float instance.

  The projection kernel stores the product of its row block with the transposed weight block.  The attention kernel's
  stored value is assembled from the pieces its text names in order: the three loaded blocks re-laid as matrices, then
  for each of the twelve heads the head's output (logits, shifted exponentials, their sum, the weighted values, the
  reciprocal), the heads concatenated, multiplied by the projection weights, and the bias added.
-/
import proofs.«149045_j6854767804979_2_alg».proof.Proof.Gen.Kernel.Skeleton

set_option synthInstance.maxSize 4096

noncomputable section

namespace Cert.Kernel.Body

open Idealize.ShloMosaic Idealize.SL.Sem Cert.Kernel Cert.Kernel.Gen

variable {F : FTy → Type} [FloatOps F]

/-- The projection kernel's stored block from its two loaded blocks. -/
def val0 (x0 : Vec F S1024x768 .bf16) (x1 : Vec F S2304x768 .bf16) : FVec F S1024x2304 .bf16 :=
  k0_pay1 x0 x1

/-- The attention kernel's stored block from its five loaded blocks: the query rows `v0`, the keys `v2`, the values
    `v4`, the projection weights `v247` and the bias row `v250`. -/
def val1 (v0 : Vec F S1x1024x768 .bf16) (v2 : Vec F S1x2048x768 .bf16) (v4 : Vec F S1x2048x768 .bf16)
    (v247 : Vec F S768x768 .bf16) (v250 : Vec F S1x768 .f32) : FVec F S1x1024x768 .f32 :=
  have v1 : FVec F S1024x768 .bf16 := k1_pay4 v0
  have v3 : FVec F S2048x768 .bf16 := k1_pay5 v2
  have v5 : FVec F S2048x768 .bf16 := k1_pay6 v4
  have v25 : FVec F S1024x64 .bf16 := k1_pay7 v0 v2 v4
  have v28 : FVec F S2048x64 .bf16 := k1_pay8 v4
  have v36 : FVec F S1024x2048 .f32 := k1_pay9 v0 v2
  have v38 : FVec F S1024x1 .f32 := k1_pay10 v0 v2
  have v45 : FVec F S1024x64 .bf16 := k1_pay11 v28 v36 v38
  have v65 : FVec F S1024x64 .bf16 := k1_pay12 v1 v3 v5
  have v84 : FVec F S1024x64 .f32 := k1_pay13 v1 v3 v5
  have v85 : FVec F S1024x64 .bf16 := k1_pay14 v84
  have v105 : FVec F S1024x64 .bf16 := k1_pay15 v1 v3 v5
  have v125 : FVec F S1024x64 .bf16 := k1_pay16 v1 v3 v5
  have v128 : FVec F S2048x64 .bf16 := k1_pay17 v5
  have v129 : FVec F S1024x2048 .f32 := k1_pay18 v1 v3
  have v130 : FVec F S1024x2048 .f32 := k1_pay19 (F := F)
  have v145 : FVec F S1024x64 .bf16 := k1_pay20 v128 v129 v130
  have v165 : FVec F S1024x64 .bf16 := k1_pay21 v1 v3 v5
  have v168 : FVec F S2048x64 .bf16 := k1_pay22 v5
  have v176 : FVec F S1024x2048 .f32 := k1_pay23 v1 v3
  have v185 : FVec F S1024x64 .bf16 := k1_pay24 v168 v176
  have v205 : FVec F S1024x64 .bf16 := k1_pay25 v1 v3 v5
  have v220 : FVec F S1024x64 .f32 := k1_pay27 v1 v3 v5
  have v222 : FVec F S1024x1 .f32 := k1_pay28 v1 v3
  have v236 : FVec F S1024x2048 .f32 := k1_pay1 v1 v3
  have v240 : FVec F S1024x64 .f32 := k1_pay2 v5 v236
  k1_pay3 v25 v45 v65 v85 v105 v125 v145 v165 v185 v205 v220 v222 v236 v240 v247 v250

end Cert.Kernel.Body

end
-- ==== Proof.FrameBody0B.lean ====
/-
  The two kernels' bodies, each run once on whole staging buffers.

  The projection kernel loads its row block and the weight block and stores one block; the attention kernel loads the
  query rows, the keys, the values, the projection weights and the bias row, and stores one block.  In both, every load
  and the single store cover a whole buffer, so after the body the output's staging buffer holds exactly the stored
  value, a pure function of the loaded blocks, and the inputs' buffers are unchanged.  From this follow the proof data
  of each pipeline (what every window's staging buffer holds after the body at every grid point) and the body
  obligation at a generic point.  The entry contents of the core's buffers are a parameter `V`.

  In the second pipeline three input windows read ONE array (the joint projection, through its query, key and value
  thirds), so the array is held at three shares that together make the full share.
-/
import proofs.«149045_j6854767804979_2_alg».proof.Proof.Gen.Kernel.Launch
import proofs.«149045_j6854767804979_2_alg».proof.Proof.Gen.Kernel.Skeleton
import proofs.«149045_j6854767804979_2_alg».proof.Proof.Gen.Kernel.Points
import proofs.«149045_j6854767804979_2_alg».proof.Proof.BodyValB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection kernel (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles of the three accesses. -/
abbrev r0_0 : Rect S1024x768 := Rect.unit (s := S1024x768) ![0, 0] S1024x768.size inb_S1024x768_S1024x768_0_0
abbrev r0_1 : Rect S2304x768 := Rect.unit (s := S2304x768) ![0, 0] S2304x768.size inb_S2304x768_S2304x768_0_0
abbrev r0_2 : Rect S1024x2304 := Rect.unit (s := S1024x2304) ![0, 0] S1024x2304.size inb_S1024x2304_S1024x2304_0_0

/-- The output window's staging buffer after the body: its one store, covering the buffer. -/
def out0_2 (x0 : Vec F S1024x768 .bf16) (x1 : Vec F S2304x768 .bf16) : Vec F S1024x2304 .bf16 :=
  View.canon [⟨r0_2, val0 (View.ld x0 r0_0) (View.ld x1 r0_1)⟩]

theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

set_option maxHeartbeats 1000000 in
/-- The body on whole staging buffers: the inputs' at contents `x0`, `x1`, the output's at anything, runs to the
    continuation with the inputs' unchanged and the output's at `out0_2 x0 x1`. -/
theorem sound_kernel0 (c : Dev nD) (E : Set ℕ) (i : grid0.Coords) (arg1 : Memref sig .tc .vmem S1024x768 .bf16) (harg1 : arg1.IsWhole)
    (arg2 : Memref sig .tc .vmem S2304x768 .bf16) (harg2 : arg2.IsWhole) (arg3 : Memref sig .tc .vmem S1024x2304 .bf16) (harg3 : arg3.IsWhole)
    (x0 : Vec F S1024x768 .bf16) (x1 : Vec F S2304x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameBody1B.lean ====
/-
  The attention kernel's body run once on whole staging buffers, and the proof data of its pipeline.

  The body loads the query rows, the keys, the values, the projection weights and the bias row, each load covering
  its whole buffer, and stores one block covering the output's buffer; so after the body the output's staging buffer
  holds exactly the stored value, a pure function of the five loaded blocks, and the inputs' buffers are unchanged.
  Three input windows read ONE array (the joint projection, through its query, key and value thirds): the proof data
  hold that array at three shares that together make the full share.
-/
import proofs.«149045_j6854767804979_2_alg».proof.Proof.Gen.Kernel.Launch
import proofs.«149045_j6854767804979_2_alg».proof.Proof.Gen.Kernel.Skeleton
import proofs.«149045_j6854767804979_2_alg».proof.Proof.Gen.Kernel.Points
import proofs.«149045_j6854767804979_2_alg».proof.Proof.BodyValB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles of the accesses. -/
abbrev r1_q : Rect S1x1024x768 := Rect.unit (s := S1x1024x768) ![0, 0, 0] S1x1024x768.size inb_S1x1024x768_S1x1024x768_0_0_0
abbrev r1_kv : Rect S1x2048x768 := Rect.unit (s := S1x2048x768) ![0, 0, 0] S1x2048x768.size inb_S1x2048x768_S1x2048x768_0_0_0
abbrev r1_w : Rect S768x768 := Rect.unit (s := S768x768) ![0, 0] S768x768.size inb_S768x768_S768x768_0_0
abbrev r1_b : Rect S1x768 := Rect.unit (s := S1x768) ![0, 0] S1x768.size inb_S1x768_S1x768_0_0

/-- The output window's staging buffer after the body: its one store, covering the buffer. -/
def out1_5 (x0 : Vec F S1x1024x768 .bf16) (x1 : Vec F S1x2048x768 .bf16) (x2 : Vec F S1x2048x768 .bf16)
    (x3 : Vec F S768x768 .bf16) (x4 : Vec F S1x768 .f32) : Vec F S1x1024x768 .f32 :=
  View.canon [⟨r1_q, val1 (View.ld x0 r1_q) (View.ld x1 r1_kv) (View.ld x2 r1_kv) (View.ld x3 r1_w) (View.ld x4 r1_b)⟩]

theorem cover1_5 (p0 : Vec F S1x1024x768 .f32) (y : S1x1024x768.Idx) :
    ∃ pc ∈ ([⟨r1_q, p0⟩] : List (View.Piece (Elt F) S1x1024x768 .f32)), y ∈ pc.1.set :=
  View.cover_of_tiled [⟨r1_q, p0⟩] S1x1024x768.size (by rfl) y

set_option maxHeartbeats 4000000 in
/-- The body on whole staging buffers: the inputs' at contents `x0 … x4`, the output's at anything, runs to the
    continuation with the inputs' unchanged and the output's at `out1_5 x0 x1 x2 x3 x4`. -/
theorem sound_kernel1 (c : Dev nD) (E : Set ℕ) (i : grid1.Coords) (arg2 : Memref sig .tc .vmem S1x1024x768 .bf16) (harg2 : arg2.IsWhole)
    (arg3 : Memref sig .tc .vmem S1x2048x768 .bf16) (harg3 : arg3.IsWhole) (arg4 : Memref sig .tc .vmem S1x2048x768 .bf16) (harg4 : arg4.IsWhole)
    (arg5 : Memref sig .tc .vmem S768x768 .bf16) (harg5 : arg5.IsWhole) (arg6 : Memref sig .tc .vmem S1x768 .f32) (harg6 : arg6.IsWhole)
    (arg7 : Memref sig .tc .vmem S1x1024x768 .f32) (harg7 : arg7.IsWhole)
    (x0 : Vec F S1x1024x768 .bf16) (x1 : Vec F S1x2048x768 .bf16) (x2 : Vec F S1x2048x768 .bf16) (x3 : Vec F S768x768 .bf16) (x4 : Vec F S1x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_proj_kernel i arg2 harg2 arg3 harg3 arg4 harg4 arg5 harg5 arg6 harg6 arg7 harg7) K := by
  simp only [cc1__attn_proj_kernel_eq_skeleton]; unfold cc1__attn_proj_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The shares at which the input windows hold their arrays: the three windows on the joint projection hold it at the
    left half, and the two halves of the right half, of the full share. -/
def q1 : Fin cfg1.W → PosShare TreeShare := fun w => match w with
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameRunB.lean ====
/-
  The run of the whole program: the host lines, the projection kernel's region, the host lines between, the
  attention kernel's region.

  The contents of the core's buffers are followed from the launch memory through the four stretches: a host stretch
  applies its operations; a region leaves every buffer as it found it except its output array, which ends holding what
  the grid's write-backs leave.  No stretch writes an argument array, so the arguments end as launched, and the result
  array ends holding the second region's write-backs.

  In the second region three input windows read one array.  Entering the region the array, held whole, is dealt to the
  three windows by splitting its full share into a left half and the two halves of the right half; leaving the region
  the three shares, all at the unchanged contents, are joined back.
-/
import proofs.«149045_j6854767804979_2_alg».proof.Proof.FrameBody0B
import proofs.«149045_j6854767804979_2_alg».proof.Proof.FrameBody1B
import proofs.«149045_j6854767804979_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

/-! ## A core's unscoped buffers, one by one -/

/-- The twelve arrays of the program on core `c`, each whole at the full share at contents `V`. -/
theorem unscopedBufs_chain (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_v0) ↦{fullShare} V main_v0) ∗ (((c : Thread nD τ).loc main_v1) ↦{fullShare} V main_v1)
        ∗ (((c : Thread nD τ).loc main_v2) ↦{fullShare} V main_v2) ∗ (((c : Thread nD τ).loc main_v3) ↦{fullShare} V main_v3)
        ∗ (((c : Thread nD τ).loc main_v4) ↦{fullShare} V main_v4) ∗ (((c : Thread nD τ).loc main_v5) ↦{fullShare} V main_v5)
        ∗ (((c : Thread nD τ).loc main_v6) ↦{fullShare} V main_v6) ∗ (((c : Thread nD τ).loc main_v7) ↦{fullShare} V main_v7)) := by
  unfold unscopedBufs
  exact bigSep_eq_bigSepL_of_eq [main_arg0, main_arg1, main_arg2, main_arg3, main_v0, main_v1, main_v2, main_v3, main_v4, main_v5, main_v6, main_v7]
    (by decide) (by decide) _

variable (V : (c : Dev nD) → (b : Ref sig .tc) → Buf (Elt F) ((c : Thread nD τ).loc b))

/-- The second pipeline's arrays at contents `Fw`, window by window, each at its share. -/
theorem arrays1_chain (c : Dev nD) (Fw : (w : Fin cfg1.W) → Buf (Elt F) ((cfg1.win w).arr.view.loc (c.tc : Thread nD τ))) :
    ((dat1 V c).arrays Fw : sProp 𝕄)
      = iprop((((c : Thread nD τ).loc main_v4) ↦{fullShare.left} Fw 0) ∗ (((c : Thread nD τ).loc main_v4) ↦{fullShare.right.left} Fw 1)
        ∗ (((c : Thread nD τ).loc main_v4) ↦{fullShare.right.right} Fw 2) ∗ (((c : Thread nD τ).loc main_v5) ↦{fullShare} Fw 3)
        ∗ (((c : Thread nD τ).loc main_v6) ↦{fullShare} Fw 4) ∗ (((c : Thread nD τ).loc main_v7) ↦{fullShare} Fw 5)) := by
  unfold Dat.arrays
  rw [bigSep_W1, (arr_whole1 0).set_eq_univ, (arr_whole1 3).set_eq_univ,
    (arr_whole1 4).set_eq_univ, (arr_whole1 5).set_eq_univ]
  rfl

/-! ## Entering and leaving the second region: one array, three windows -/

/-- ENTRY. The core's arrays at `V` are the second pipeline's arrays at their entry contents — the joint projection
    dealt to its three windows by halving its full share twice — and the arrays no window names. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs_chain, arrays1_chain, unscopedRest1_eq]
  iintro ⟨Ha0, Ha1, Ha2, Ha3, Hv0, Hv1, Hv2, Hv3, Hv4, Hv5, Hv6, Hv7⟩
  ihave H4 := (pointsTo_share (PosShare.mem_left_op_right fullShare)).1 $$ Hv4
  icases H4 with ⟨H4L, H4R⟩
  ihave H4R' := (pointsTo_share (PosShare.mem_left_op_right fullShare.right)).1 $$ H4R
  icases H4R' with ⟨H4RL, H4RR⟩
  isplitl [H4L H4RL H4RR Hv5 Hv6 Hv7]
  · isplitl [H4L]; · iexact H4L
    isplitl [H4RL]; · iexact H4RL
    isplitl [H4RR]; · iexact H4RR
    isplitl [Hv5]; · iexact Hv5
    isplitl [Hv6]; · iexact Hv6
    iexact Hv7
  isplitl [Ha0]; · iexact Ha0
  isplitl [Ha1]; · iexact Ha1
  isplitl [Ha2]; · iexact Ha2
  isplitl [Ha3]; · iexact Ha3
  isplitl [Hv0]; · iexact Hv0
  isplitl [Hv1]; · iexact Hv1
  isplitl [Hv2]; · iexact Hv2
  iexact Hv3

/-- EXIT. The second pipeline's arrays at their final contents — the inputs unchanged, so the three shares of the
    joint projection join back — and the arrays no window names make the core's arrays at any contents `V'` that has
    the result array at what the write-backs leave and agrees with `V` elsewhere. -/
theorem exit1 (c : Dev nD) (V' : (b : Ref sig .tc) → Buf (Elt F) ((c : Thread nD τ).loc b))
    (hne : ∀ b : Ref sig .tc, b ≠ main_v7 → V' b = V c b) (h7 : V' main_v7 = (dat1 V c).arrAt 5 cfg1.N) :
    iprop((dat1 V c).arrays ((dat1 V c).arrAt · cfg1.N)
          ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [unscopedBufs_chain, arrays1_chain, unscopedRest1_eq,
    hne main_arg0 (by decide), hne main_arg1 (by decide), hne main_arg2 (by decide), hne main_arg3 (by decide),
    hne main_v0 (by decide), hne main_v1 (by decide), hne main_v2 (by decide), hne main_v3 (by decide),
    hne main_v4 (by decide), hne main_v5 (by decide), hne main_v6 (by decide), h7,
    show (dat1 V c).arrAt 0 cfg1.N = V c main_v4 from ((dat1 V c).arrAt_in 0 rfl _).trans (A_eq1 V c 0),
    show (dat1 V c).arrAt 1 cfg1.N = V c main_v4 from ((dat1 V c).arrAt_in 1 rfl _).trans (A_eq1 V c 1),
    show (dat1 V c).arrAt 2 cfg1.N = V c main_v4 from ((dat1 V c).arrAt_in 2 rfl _).trans (A_eq1 V c 2),
    show (dat1 V c).arrAt 3 cfg1.N = V c main_v5 from ((dat1 V c).arrAt_in 3 rfl _).trans (A_eq1 V c 3),
    show (dat1 V c).arrAt 4 cfg1.N = V c main_v6 from ((dat1 V c).arrAt_in 4 rfl _).trans (A_eq1 V c 4)]
  iintro ⟨⟨H4L, H4RL, H4RR, Hv5, Hv6, Hv7⟩, Ha0, Ha1, Ha2, Ha3, Hv0, Hv1, Hv2, Hv3⟩
  ihave H4R := (pointsTo_share (PosShare.mem_left_op_right fullShare.right)).2 $$ [H4RL H4RR]
  · isplitl [H4RL]; · iexact H4RL
    iexact H4RR
  ihave Hv4 := (pointsTo_share (PosShare.mem_left_op_right fullShare)).2 $$ [H4L H4R]
  · isplitl [H4L]; · iexact H4L
    iexact H4R
  isplitl [Ha0]; · iexact Ha0
  isplitl [Ha1]; · iexact Ha1
  isplitl [Ha2]; · iexact Ha2
  isplitl [Ha3]; · iexact Ha3
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  iexact Hv7

/-! ## The buffers' contents at each boundary -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the first host lines (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its output array at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host lines between the regions (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the result array at what the write-backs leave, every other buffer as entered. -/
def W4 (c : Dev nD) : Valuation τ sig (Elt F) :=
  Function.update (W3 m c) main_v7 ((dat1 (V3 m) c).arrAt 5 cfg1.N)
abbrev V4 : (c : Dev nD) → (b : Ref sig .tc) → Buf (Elt F) ((c : Thread nD τ).loc b) := fun c b => W4 m c b
theorem W4_v7 (c : Dev nD) : V4 m c main_v7 = (dat1 (V3 m) c).arrAt 5 cfg1.N := by
  show W4 m c (Proc.devRef .tc main_v7) = _
  unfold W4; exact Function.update_self _ _ _
theorem W4_of_ne (c : Dev nD) (b : Ref sig .tc) (h : b ≠ main_v7) : V4 m c b = V3 m c b := by
  show W4 m c (Proc.devRef .tc b) = W3 m c (Proc.devRef .tc b)
  unfold W4
  exact Function.update_of_ne (StableHlo.devRef_ne_of_ne h : (Proc.devRef .tc b : DevRef τ sig) ≠ Proc.devRef .tc main_v7) _ _

/-- A buffer that no host line writes and that is neither region's output ends as launched. -/
theorem W4_kept (c : Dev nD) (b : Ref sig .tc) (h4 : b ≠ main_v7) (h1 : b ∉ hostOps1_W) (h2 : ∀ w, Pipeline.arrRef spec0 w ≠ b)
    (h0 : b ∉ hostOps0_W) : W4 m c (Proc.devRef .tc b) = m ((c : Thread nD τ).loc b) :=
  (W4_of_ne m c b h4).trans <| (StableHlo.after_of_writes_sub hostOps1 _ hostOps1_writes h1).trans <|
    (W2_of_ne m c b h2).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every array at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every array at `W3`, left at `W4`; its three windows on the joint projection
    share that array (`entry1`, `exit1`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) :=
      exit1 (V3 m) c (V4 m c) (W4_of_ne m c) (W4_v7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has each unscoped buffer at the last boundary's contents: the result array at what
    the second region's write-backs leave, the argument arrays as launched. -/
theorem run_main : θ_run defs (onTc (τ := τ) (main (F := F))) ⟨m, fun _ => 0, ρ⟩ (fun r => ∀ c : Dev nD,
      r.2.mem ((c.tc : Thread nD τ).loc main_v7) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_v7 m c),
       (h c _ (mem_uc main_arg0 (by decide))).trans (W4_kept m c main_arg0 (by decide) (by decide) (by decide) (by decide)),
       (h c _ (mem_uc main_arg1 (by decide))).trans (W4_kept m c main_arg1 (by decide) (by decide) (by decide) (by decide)),
       (h c _ (mem_uc main_arg2 (by decide))).trans (W4_kept m c main_arg2 (by decide) (by decide) (by decide) (by decide)),
       (h c _ (mem_uc main_arg3 (by decide))).trans (W4_kept m c main_arg3 (by decide) (by decide) (by decide) (by decide))⟩)

end Cert.Kernel.Fr

end
-- ==== Proof.Frames.lean ====
/-
  The three frame claims and the idealization claim.

  Each kernel program's run (the host lines and the two regions followed from the launch memory) ends with every
  argument array as launched; the reference's run, a straight line of host operations, likewise.  The idealized
  kernel is the kernel's own text read at the extended reals: no operation was rewritten, so there is nothing to
  preserve.
-/
import proofs.«149045_j6854767804979_2_alg».proof.Defs
import proofs.«149045_j6854767804979_2_alg».proof.Proof.Gen.Pre_finite_inputs
import proofs.«149045_j6854767804979_2_alg».proof.Proof.Gen.ReferenceIdeal.Run
import proofs.«149045_j6854767804979_2_alg».proof.Proof.FrameRunI
import proofs.«149045_j6854767804979_2_alg».proof.Proof.FrameRunB

noncomputable section

namespace Cert.Proof.Frames

open Idealize.ShloMosaic Idealize.ShloMosaic.TcCoe Idealize.SL.Sem

theorem frame_kernel : Cert.frame_Kernel := fun m ρ _ =>
  (θ_run Cert.Kernel.defs _ _).mono (fun _ h c => (h c).2) (Cert.Kernel.Fr.run_main (F := Bits) m ρ)

theorem frame_kernelIdeal : Cert.frame_KernelIdeal := fun m ρ _ =>
  (θ_run Cert.KernelIdeal.defs _ _).mono (fun _ h c => (h c).2) (Cert.KernelIdeal.Fr.run_main (F := Ideal) m ρ)

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Frames

end
-- ==== Proof.AttnSpec.lean ====
/-
  Multi-head self-attention followed by an output projection, on the extended reals, for ONE query row.

  The row's query `qrow`, the keys `K` and the values `V` are 768 wide: twelve heads of 64 lanes, head `h` in
  columns `64 h … 64 h + 63`.  For each head the scaled logits of the row against every key are
  `logit j = (∑ d, qrow (h, d) · K j (h, d)) · 1/8`; they are shifted by their maximum, exponentiated, and the
  values are averaged with those weights.  Two arrangements of that average are stated:

  * `headK`: the UNNORMALISED weighted sum of the values, multiplied at the end by the reciprocal `1 / ∑ weights`;
  * `headR`: each weight first divided by the sum of the weights (the softmax), then the weighted sum.

  They agree when every number involved is a real number (`SoftmaxLaw`): the weights are positive reals, their sum is
  a positive real, and multiplication by a real distributes over a finite sum of reals.  On the extended reals the
  two differ at infinities, which is why the agreement is only stated for finite inputs.

  The twelve heads side by side form a 768-wide row `attn`, and the output row is `attn · Wᵀ + B`.
-/
import Idealize.ShloMosaic.PureOps.Ideal

noncomputable section

namespace Cert.Attn

open Idealize.ShloMosaic

/-- The words of the four float literals both programs spell: 1/8, -∞, 0 and 1. -/
def eighth : EReal := Ideal.ofBits .f32 0x3E000000#32
def negInf : EReal := Ideal.ofBits .f32 0xFF800000#32
def zero : EReal := Ideal.ofBits .f32 0x00000000#32
def one : EReal := Ideal.ofBits .f32 0x3F800000#32

/-- Column `64 h + d` of a 768-wide row: lane `d` of head `h`. -/
def hcol (h : Fin 12) (d : Fin 64) : Fin 768 := ⟨h.val * 64 + d.val, by omega⟩

/-- The head a column belongs to, and its lane inside the head. -/
def headOf (e : Fin 768) : Fin 12 := ⟨e.val / 64, by omega⟩
def laneOf (e : Fin 768) : Fin 64 := ⟨e.val % 64, Nat.mod_lt _ (by decide)⟩

theorem hcol_headOf_laneOf (e : Fin 768) : hcol (headOf e) (laneOf e) = e :=
  Fin.ext (by simp only [hcol, headOf, laneOf]; omega)

/-- The scaled logit of the row against key `j`, in head `h`. -/
def logit (qrow : Fin 768 → EReal) (K : Fin 2048 → Fin 768 → EReal) (h : Fin 12) (j : Fin 2048) : EReal :=
  (∑ d : Fin 64, qrow (hcol h d) * K j (hcol h d)) * eighth

/-! ## The arrangement with the reciprocal taken last -/

/-- The largest logit of the row: the fold of `max` from -∞ over the keys. -/
def maxK (qrow : Fin 768 → EReal) (K : Fin 2048 → Fin 768 → EReal) (h : Fin 12) : EReal :=
  (Finset.univ : Finset (Fin 2048)).fold max negInf (logit qrow K h)

/-- The unnormalised weight of key `j`. -/
def expK (qrow : Fin 768 → EReal) (K : Fin 2048 → Fin 768 → EReal) (h : Fin 12) (j : Fin 2048) : EReal :=
  Ideal.exp (logit qrow K h j - maxK qrow K h)

/-- The sum of the weights. -/
def sumK (qrow : Fin 768 → EReal) (K : Fin 2048 → Fin 768 → EReal) (h : Fin 12) : EReal :=
  ∑ j : Fin 2048, expK qrow K h j

/-- Lane `d` of head `h`: the weighted sum of the values, times the reciprocal of the sum of the weights. -/
def headK (qrow : Fin 768 → EReal) (K V : Fin 2048 → Fin 768 → EReal) (h : Fin 12) (d : Fin 64) : EReal :=
  (∑ j : Fin 2048, expK qrow K h j * V j (hcol h d)) * Ideal.div one (sumK qrow K h)

/-- The output row: the heads side by side, times `Wᵀ`, plus `B`. -/
def rowOutK (qrow : Fin 768 → EReal) (K V : Fin 2048 → Fin 768 → EReal) (W : Fin 768 → Fin 768 → EReal)
    (B : Fin 768 → EReal) (f : Fin 768) : EReal :=
  (∑ e : Fin 768, headK qrow K V (headOf e) (laneOf e) * W f e) + B f

/-! ## The arrangement with the softmax taken first -/

/-- The largest logit of the row, taken once more against -∞. -/
def maxR (qrow : Fin 768 → EReal) (K : Fin 2048 → Fin 768 → EReal) (h : Fin 12) : EReal :=
  max negInf ((Finset.univ : Finset (Fin 2048)).fold max negInf (logit qrow K h))

def expR (qrow : Fin 768 → EReal) (K : Fin 2048 → Fin 768 → EReal) (h : Fin 12) (j : Fin 2048) : EReal :=
  Ideal.exp (logit qrow K h j - maxR qrow K h)

/-- The sum of the weights, from the initial value 0. -/
def sumR (qrow : Fin 768 → EReal) (K : Fin 2048 → Fin 768 → EReal) (h : Fin 12) : EReal :=
  zero + ∑ j : Fin 2048, expR qrow K h j

/-- Lane `d` of head `h`: the values averaged with the softmax weights. -/
def headR (qrow : Fin 768 → EReal) (K V : Fin 2048 → Fin 768 → EReal) (h : Fin 12) (d : Fin 64) : EReal :=
  ∑ j : Fin 2048, Ideal.div (expR qrow K h j) (sumR qrow K h) * V j (hcol h d)

def rowOutR (qrow : Fin 768 → EReal) (K V : Fin 2048 → Fin 768 → EReal) (W : Fin 768 → Fin 768 → EReal)
    (B : Fin 768 → EReal) (f : Fin 768) : EReal :=
  (∑ e : Fin 768, headR qrow K V (headOf e) (laneOf e) * W f e) + B f

/-! ## The whole computation from the four arrays -/

/-- The joint projection `x · W_qkvᵀ`: row `(b, s)`, column `f` of 2304. -/
def proj (x : Fin 4 → Fin 2048 → Fin 768 → EReal) (wq : Fin 2304 → Fin 768 → EReal)
    (b : Fin 4) (s : Fin 2048) (f : Fin 2304) : EReal :=
  ∑ e : Fin 768, x b s e * wq f e

/-- Column `e` of the `t`-th third (0: queries, 1: keys, 2: values) of a 2304-wide row. -/
def third (t : Fin 3) (e : Fin 768) : Fin 2304 := ⟨t.val * 768 + e.val, by omega⟩

/-- The result at `(b, s, f)` in the first arrangement. -/
def outK (x : Fin 4 → Fin 2048 → Fin 768 → EReal) (wq : Fin 2304 → Fin 768 → EReal)
    (wp : Fin 768 → Fin 768 → EReal) (bp : Fin 768 → EReal) (b : Fin 4) (s : Fin 2048) (f : Fin 768) : EReal :=
  rowOutK (fun e => proj x wq b s (third 0 e)) (fun j e => proj x wq b j (third 1 e))
    (fun j e => proj x wq b j (third 2 e)) wp bp f

/-- The result at `(b, s, f)` in the second arrangement. -/
def outR (x : Fin 4 → Fin 2048 → Fin 768 → EReal) (wq : Fin 2304 → Fin 768 → EReal)
    (wp : Fin 768 → Fin 768 → EReal) (bp : Fin 768 → EReal) (b : Fin 4) (s : Fin 2048) (f : Fin 768) : EReal :=
  rowOutR (fun e => proj x wq b s (third 0 e)) (fun j e => proj x wq b j (third 1 e))
    (fun j e => proj x wq b j (third 2 e)) wp bp f

end Cert.Attn

end
-- ==== Proof.RefValue.lean ====
/-
  The reference program read at an index.

  The program computes the joint projection `x · W_qkvᵀ`, cuts each 2304-wide row into three thirds (queries, keys,
  values) of twelve heads of 64 lanes, forms for every head the scaled logits of a query row against every key, takes
  the softmax of each row of logits (maximum, shift, exponential, sum, quotient), averages the values with those weights,
  puts the twelve heads side by side and applies the output projection and its bias.  Stage by stage, each intermediate
  array read at explicit coordinates is the corresponding quantity of the one-row description of attention: the
  projection, the logit, the row maximum, the weight, the sum of the weights, the head's lane, and the output row.
-/
import proofs.«149045_j6854767804979_2_alg».proof.Proof.Gen.ReferenceIdeal.Read
import proofs.«149045_j6854767804979_2_alg».proof.Proof.AttnSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

variable (a0 : (⟨S4x2048x768, .f32⟩ : BufTy).Contents (Elt Ideal)) (a1 : (⟨S2304x768, .f32⟩ : BufTy).Contents (Elt Ideal))

/-- The input array and the joint weight as functions of their coordinates. -/
abbrev xOf : Fin 4 → Fin 2048 → Fin 768 → EReal := fun b s e => a0 (ix3 b s e)
abbrev wqOf : Fin 2304 → Fin 768 → EReal := fun f e => a1 (ix2 f e)

/-! ## The joint projection and its three thirds -/

/-- The first contraction at `(b, s, g)` is the joint projection: the sum over the 768 input columns. -/
theorem v0_at (b : Fin 4) (s : Fin 2048) (g : Fin 2304) :
    val_main_v0 (F := Ideal) a0 a1 (ix3 b s g) = proj (xOf a0) (wqOf a1) b s g := by
  rw [val_main_v0_apply]
  unfold proj
  refine Finset.sum_congr rfl fun k _ => ?_
  have el : lidx_main_v0 (ix3 b s g) k = ix3 b s k := funext fun a => Fin.ext (by
    match a with | ⟨0, _⟩ => rfl | ⟨1, _⟩ => rfl | ⟨2, _⟩ => rfl)
  have er : ridx_main_v0 (ix3 b s g) k = ix2 g k := funext fun a => Fin.ext (by
    match a with | ⟨0, _⟩ => rfl | ⟨1, _⟩ => rfl)
  rw [el, er]

/-- After the reshape to `[4, 2048, 3, 12, 64]` and the transpose to `[3, 4, 12, 2048, 64]`, the entry at
    `(t, b, h, s, d)` is the projection's column `768 t + 64 h + d` of row `(b, s)`. -/
theorem v2_at (t : Fin 3) (b : Fin 4) (h : Fin 12) (s : Fin 2048) (d : Fin 64) :
    val_main_v2 (F := Ideal) a0 a1 (ix5 t b h s d) = proj (xOf a0) (wqOf a1) b s (third t (hcol h d)) := by
  rw [val_main_v2_apply, val_main_v1_apply]
  have e : idx_main_v1 (idx_main_v2 (ix5 t b h s d)) = ix3 b s (third t (hcol h d)) := funext fun a => Fin.ext (by
    have hb := b.isLt; have hs := s.isLt; have ht := t.isLt; have hh := h.isLt; have hd := d.isLt
    match a with
    | ⟨0, _⟩ =>
      show ((((b.val * 2048 + s.val) * 3 + t.val) * 12 + h.val) * 64 + d.val) / 4718592 = b.val
      omega
    | ⟨1, _⟩ =>
      show ((((b.val * 2048 + s.val) * 3 + t.val) * 12 + h.val) * 64 + d.val) / 2304 % 2048 = s.val
      omega
    | ⟨2, _⟩ =>
      show ((((b.val * 2048 + s.val) * 3 + t.val) * 12 + h.val) * 64 + d.val) % 2304 = t.val * 768 + (h.val * 64 + d.val)
      omega)
  rw [e]
  exact v0_at a0 a1 b s (third t (hcol h d))

/-- The reshape that drops the leading unit axis reads `(b, h, s, d)` at `(0, b, h, s, d)`. -/
theorem drop_unit_idx (b : Fin 4) (h : Fin 12) (s : Fin 2048) (d : Fin 64) (a : Fin 5) (ha : a.val ≠ 0) :
    (idx_main_v4 (ix4 b h s d) a).val = (ix5 (0 : Fin 1) b h s d a).val := by
  have hb := b.isLt; have hs := s.isLt; have hh := h.isLt; have hd := d.isLt
  match a with
  | ⟨0, _⟩ => exact absurd rfl ha
  | ⟨1, _⟩ =>
    show (((b.val * 12 + h.val) * 2048 + s.val) * 64 + d.val) / 1572864 % 4 = b.val
    omega
  | ⟨2, _⟩ =>
    show (((b.val * 12 + h.val) * 2048 + s.val) * 64 + d.val) / 131072 % 12 = h.val
    omega
  | ⟨3, _⟩ =>
    show (((b.val * 12 + h.val) * 2048 + s.val) * 64 + d.val) / 64 % 2048 = s.val
    omega
  | ⟨4, _⟩ =>
    show (((b.val * 12 + h.val) * 2048 + s.val) * 64 + d.val) % 64 = d.val
    omega

/-- The queries: the first third. -/
theorem v4_at (b : Fin 4) (h : Fin 12) (s : Fin 2048) (d : Fin 64) :
    val_main_v4 (F := Ideal) a0 a1 (ix4 b h s d) = proj (xOf a0) (wqOf a1) b s (third 0 (hcol h d)) := by
  rw [val_main_v4_apply, val_main_v3_apply]
  have e : idx_main_v3 (idx_main_v4 (ix4 b h s d)) = ix5 (0 : Fin 3) b h s d := funext fun a => Fin.ext (by
    match a with
    | ⟨0, _⟩ => rfl
    | ⟨1, _⟩ => exact drop_unit_idx b h s d ⟨1, by decide⟩ (by decide)
    | ⟨2, _⟩ => exact drop_unit_idx b h s d ⟨2, by decide⟩ (by decide)
    | ⟨3, _⟩ => exact drop_unit_idx b h s d ⟨3, by decide⟩ (by decide)
    | ⟨4, _⟩ => exact drop_unit_idx b h s d ⟨4, by decide⟩ (by decide))
  rw [e]
  exact v2_at a0 a1 0 b h s d

/-- The keys: the second third. -/
theorem v6_at (b : Fin 4) (h : Fin 12) (s : Fin 2048) (d : Fin 64) :
    val_main_v6 (F := Ideal) a0 a1 (ix4 b h s d) = proj (xOf a0) (wqOf a1) b s (third 1 (hcol h d)) := by
  rw [val_main_v6_apply, val_main_v5_apply]
  have e : idx_main_v5 (idx_main_v6 (ix4 b h s d)) = ix5 (1 : Fin 3) b h s d := funext fun a => Fin.ext (by
    match a with
    | ⟨0, _⟩ => rfl
    | ⟨1, _⟩ => exact drop_unit_idx b h s d ⟨1, by decide⟩ (by decide)
    | ⟨2, _⟩ => exact drop_unit_idx b h s d ⟨2, by decide⟩ (by decide)
    | ⟨3, _⟩ => exact drop_unit_idx b h s d ⟨3, by decide⟩ (by decide)
    | ⟨4, _⟩ => exact drop_unit_idx b h s d ⟨4, by decide⟩ (by decide))
  rw [e]
  exact v2_at a0 a1 1 b h s d

/-- The values: the last third. -/
theorem v8_at (b : Fin 4) (h : Fin 12) (s : Fin 2048) (d : Fin 64) :
    val_main_v8 (F := Ideal) a0 a1 (ix4 b h s d) = proj (xOf a0) (wqOf a1) b s (third 2 (hcol h d)) := by
  rw [val_main_v8_apply, val_main_v7_apply]
  have e : idx_main_v7 (idx_main_v8 (ix4 b h s d)) = ix5 (2 : Fin 3) b h s d := funext fun a => Fin.ext (by
    match a with
    | ⟨0, _⟩ => rfl
    | ⟨1, _⟩ => exact drop_unit_idx b h s d ⟨1, by decide⟩ (by decide)
    | ⟨2, _⟩ => exact drop_unit_idx b h s d ⟨2, by decide⟩ (by decide)
    | ⟨3, _⟩ => exact drop_unit_idx b h s d ⟨3, by decide⟩ (by decide)
    | ⟨4, _⟩ => exact drop_unit_idx b h s d ⟨4, by decide⟩ (by decide))
  rw [e]
  exact v2_at a0 a1 2 b h s d

/-! ## One query row against the keys of its batch -/

/-- The query row `(b, q)`, and the keys and the values of batch `b`, as the one-row description takes them. -/
abbrev qrowOf (b : Fin 4) (q : Fin 2048) : Fin 768 → EReal := fun e => proj (xOf a0) (wqOf a1) b q (third 0 e)
abbrev keysOf (b : Fin 4) : Fin 2048 → Fin 768 → EReal := fun j e => proj (xOf a0) (wqOf a1) b j (third 1 e)
abbrev valsOf (b : Fin 4) : Fin 2048 → Fin 768 → EReal := fun j e => proj (xOf a0) (wqOf a1) b j (third 2 e)

/-- The batched contraction of queries with keys over the 64 lanes, times 1/8, is the scaled logit. -/
theorem v11_at (b : Fin 4) (h : Fin 12) (q j : Fin 2048) :
    val_main_v11 (F := Ideal) a0 a1 (ix4 b h q j) = logit (qrowOf a0 a1 b q) (keysOf a0 a1 b) h j := by
  rw [val_main_v11_apply, val_main_v9_apply, val_main_v10_apply, val_main_cst_apply]
  unfold logit eighth
  simp only [Ideal.mulf_def, Ideal.ofBits_def]
  refine congrArg (fun z => z * Ideal.ofBits .f32 0x3E000000#32) (Finset.sum_congr rfl fun k _ => ?_)
  have el : lidx_main_v9 (ix4 b h q j) k = ix4 b h q k := funext fun a => Fin.ext (by
    match a with | ⟨0, _⟩ => rfl | ⟨1, _⟩ => rfl | ⟨2, _⟩ => rfl | ⟨3, _⟩ => rfl)
  have er : ridx_main_v9 (ix4 b h q j) k = ix4 b h j k := funext fun a => Fin.ext (by
    match a with | ⟨0, _⟩ => rfl | ⟨1, _⟩ => rfl | ⟨2, _⟩ => rfl | ⟨3, _⟩ => rfl)
  rw [el, er, v4_at, v6_at]

/-- The witness that dropping the last axis of `[4, 12, 2048, 2048]` leaves `[4, 12, 2048]`. -/
theorem reduces_last : S4x12x2048x2048.Reduces [3] S4x12x2048 := by decide

/-- The reduced index `(b, h, q)` with the key `k` put back on the last axis is `(b, h, q, k)`. -/
theorem lift_last (b : Fin 4) (h : Fin 12) (q : Fin 2048) (k : Fin (S4x12x2048x2048.size 3)) :
    reduces_last.lift (ix3 b h q) k = ix4 b h q (⟨k.val, k.isLt⟩ : Fin 2048) := by
  funext c; apply Fin.ext
  match c with | ⟨0, _⟩ => rfl | ⟨1, _⟩ => rfl | ⟨2, _⟩ => rfl | ⟨3, _⟩ => rfl

/-- The maximum-reduce over the keys, from -∞: the fold of `max` over the row of logits. -/
theorem v12_at (b : Fin 4) (h : Fin 12) (q : Fin 2048) :
    val_main_v12 (F := Ideal) a0 a1 (ix3 b h q)
      = (Finset.univ : Finset (Fin 2048)).fold max negInf (logit (qrowOf a0 a1 b q) (keysOf a0 a1 b) h) := by
  unfold val_main_v12
  rw [Host.reduce_eq_fold_single FloatOps.maximumf _ _ reducesTo_S4x12x2048x2048_S4x12x2048_d3 reduces_last h_S_]
  have hf : (val_main_v11 (F := Ideal) a0 a1 ∘ reduces_last.lift (ix3 b h q))
      = fun k : Fin 2048 => logit (qrowOf a0 a1 b q) (keysOf a0 a1 b) h k := funext fun k => by
    show val_main_v11 (F := Ideal) a0 a1 (reduces_last.lift (ix3 b h q) k) = _
    rw [lift_last, v11_at]
    rfl
  rw [hf]
  rfl

/-- The maximum taken once more against -∞. -/
theorem v14_at (b : Fin 4) (h : Fin 12) (q : Fin 2048) :
    val_main_v14 (F := Ideal) a0 a1 (ix3 b h q) = maxR (qrowOf a0 a1 b q) (keysOf a0 a1 b) h := by
  rw [val_main_v14_apply, val_main_v13_apply, val_main_cst_1_apply, v12_at]
  rfl

/-- The shifted and exponentiated logit: the weight of key `j`. -/
theorem v18_at (b : Fin 4) (h : Fin 12) (q j : Fin 2048) :
    val_main_v18 (F := Ideal) a0 a1 (ix4 b h q j) = expR (qrowOf a0 a1 b q) (keysOf a0 a1 b) h j := by
  rw [val_main_v18_apply, val_main_v17_apply, val_main_v16_apply, val_main_v15_apply]
  have e : idx_main_v15 (idx_main_v16 (ix4 b h q j)) = ix3 b h q := funext fun a => Fin.ext (by
    match a with | ⟨0, _⟩ => rfl | ⟨1, _⟩ => rfl | ⟨2, _⟩ => rfl)
  rw [e, v14_at, v11_at]
  rfl

/-- The sum of the weights over the keys, from the initial value 0. -/
theorem v19_at (b : Fin 4) (h : Fin 12) (q : Fin 2048) :
    val_main_v19 (F := Ideal) a0 a1 (ix3 b h q) = sumR (qrowOf a0 a1 b q) (keysOf a0 a1 b) h := by
  rw [val_main_v19_apply, val_main_cst_2_apply]
  unfold sumR zero
  simp only [Ideal.ofBits_def]
  refine congrArg (fun z => Ideal.ofBits .f32 0x00000000#32 + z) (Finset.sum_congr rfl fun k _ => ?_)
  have e : idx_main_v19 (ix3 b h q) k = ix4 b h q k := funext fun a => Fin.ext (by
    match a with | ⟨0, _⟩ => rfl | ⟨1, _⟩ => rfl | ⟨2, _⟩ => rfl | ⟨3, _⟩ => rfl)
  rw [e, v18_at]

/-! ## The softmax weights, the heads, and the output row -/

/-- The weight divided by the sum of the weights. -/
theorem v22_at (b : Fin 4) (h : Fin 12) (q j : Fin 2048) :
    val_main_v22 (F := Ideal) a0 a1 (ix4 b h q j)
      = Ideal.div (expR (qrowOf a0 a1 b q) (keysOf a0 a1 b) h j) (sumR (qrowOf a0 a1 b q) (keysOf a0 a1 b) h) := by
  rw [val_main_v22_apply, val_main_v21_apply, val_main_v20_apply]
  have e : idx_main_v20 (idx_main_v21 (ix4 b h q j)) = ix3 b h q := funext fun a => Fin.ext (by
    match a with | ⟨0, _⟩ => rfl | ⟨1, _⟩ => rfl | ⟨2, _⟩ => rfl)
  rw [e, v19_at, v18_at]
  rfl

/-- The batched contraction of the softmax weights with the values over the keys: lane `d` of head `h`. -/
theorem v23_at (b : Fin 4) (h : Fin 12) (q : Fin 2048) (d : Fin 64) :
    val_main_v23 (F := Ideal) a0 a1 (ix4 b h q d)
      = headR (qrowOf a0 a1 b q) (keysOf a0 a1 b) (valsOf a0 a1 b) h d := by
  rw [val_main_v23_apply]
  unfold headR
  refine Finset.sum_congr rfl fun k _ => ?_
  have el : lidx_main_v23 (ix4 b h q d) k = ix4 b h q k := funext fun a => Fin.ext (by
    match a with | ⟨0, _⟩ => rfl | ⟨1, _⟩ => rfl | ⟨2, _⟩ => rfl | ⟨3, _⟩ => rfl)
  have er : ridx_main_v23 (ix4 b h q d) k = ix4 b h k d := funext fun a => Fin.ext (by
    match a with | ⟨0, _⟩ => rfl | ⟨1, _⟩ => rfl | ⟨2, _⟩ => rfl | ⟨3, _⟩ => rfl)
  rw [el, er, v22_at, v8_at]

/-- The heads side by side: after the transpose to `[4, 2048, 12, 64]` and the reshape to `[4, 2048, 768]`, column
    `e` of row `(b, s)` is lane `e mod 64` of head `e / 64`. -/
theorem v25_at (b : Fin 4) (s : Fin 2048) (e : Fin 768) :
    val_main_v25 (F := Ideal) a0 a1 (ix3 b s e)
      = headR (qrowOf a0 a1 b s) (keysOf a0 a1 b) (valsOf a0 a1 b) (headOf e) (laneOf e) := by
  rw [val_main_v25_apply, val_main_v24_apply]
  have ei : idx_main_v24 (idx_main_v25 (ix3 b s e)) = ix4 b (headOf e) s (laneOf e) := funext fun a => Fin.ext (by
    have hb := b.isLt; have hs := s.isLt; have he := e.isLt
    match a with
    | ⟨0, _⟩ =>
      show ((b.val * 2048 + s.val) * 768 + e.val) / 1572864 = b.val
      omega
    | ⟨1, _⟩ =>
      show ((b.val * 2048 + s.val) * 768 + e.val) / 64 % 12 = e.val / 64
      omega
    | ⟨2, _⟩ =>
      show ((b.val * 2048 + s.val) * 768 + e.val) / 768 % 2048 = s.val
      omega
    | ⟨3, _⟩ =>
      show ((b.val * 2048 + s.val) * 768 + e.val) % 64 = e.val % 64
      omega)
  rw [ei]
  exact v23_at a0 a1 b (headOf e) s (laneOf e)

variable (a2 : (⟨S768x768, .f32⟩ : BufTy).Contents (Elt Ideal)) (a3 : (⟨S768, .f32⟩ : BufTy).Contents (Elt Ideal))

/-- The output projection of the concatenated heads. -/
theorem v26_at (b : Fin 4) (s : Fin 2048) (f : Fin 768) :
    val_main_v26 (F := Ideal) a0 a1 a2 (ix3 b s f)
      = ∑ e : Fin 768, headR (qrowOf a0 a1 b s) (keysOf a0 a1 b) (valsOf a0 a1 b) (headOf e) (laneOf e) * a2 (ix2 f e) := by
  rw [val_main_v26_apply]
  refine Finset.sum_congr rfl fun k _ => ?_
  have el : lidx_main_v26 (ix3 b s f) k = ix3 b s k := funext fun a => Fin.ext (by
    match a with | ⟨0, _⟩ => rfl | ⟨1, _⟩ => rfl | ⟨2, _⟩ => rfl)
  have er : ridx_main_v26 (ix3 b s f) k = ix2 f k := funext fun a => Fin.ext (by
    match a with | ⟨0, _⟩ => rfl | ⟨1, _⟩ => rfl)
  rw [el, er, v25_at]

/-- The bias, broadcast over the batch and the rows. -/
theorem v28_at (b : Fin 4) (s : Fin 2048) (f : Fin 768) :
    val_main_v28 (F := Ideal) a3 (ix3 b s f) = a3 (ix1 f) := by
  rw [val_main_v28_apply, val_main_v27_apply]
  exact congrArg a3 (funext fun a => Fin.ext (by match a with | ⟨0, _⟩ => rfl))

/-- The reference program's result at `(b, s, f)` is the output row of the softmax-first arrangement, built from the
    four argument arrays. -/
theorem ref_value (b : Fin 4) (s : Fin 2048) (f : Fin 768) :
    val_main_v29 (F := Ideal) a0 a1 a2 a3 (ix3 b s f)
      = outR (fun b s e => a0 (ix3 b s e)) (fun f e => a1 (ix2 f e)) (fun f e => a2 (ix2 f e)) (fun f => a3 (ix1 f)) b s f := by
  rw [val_main_v29_apply, v26_at, v28_at]
  rfl

end Cert.ReferenceIdeal.RefValue

end
-- ==== Proof.SoftmaxLaw.lean ====
/-
  The two arrangements of one attention row agree on real inputs.

  With real queries, keys and values every logit is a real number; the fold of `max` from -∞ over the 2048 keys is
  then a real number `M` (it is above the first logit and below +∞), and taking `max` with -∞ once more changes
  nothing.  The weights `exp (logit j - M)` are positive reals, so their sum `L` is a positive real, `1 / L` is a
  real, and `(∑ j, p j · v j) · (1 / L) = ∑ j, (p j · (1 / L)) · v j` is distributivity in the field of reals.  The
  coercion from the reals into the extended reals commutes with finite sums and with products, which carries the
  identity over.  The joint projection of real arrays is real, so the statement holds for the whole computation.
-/
import proofs.«149045_j6854767804979_2_alg».proof.Proof.AttnSpec
import Idealize.ShloMosaic.PureOps.Ideal

noncomputable section

namespace Cert.Attn

open Idealize.ShloMosaic

/-- The four float words as extended reals. -/
theorem eighth_eq : eighth = (((1 / 8 : ℝ)) : EReal) := by
  unfold eighth
  simp [Ideal.ofBits, Ideal.ieee, -EReal.coe_mul]
  norm_num

theorem negInf_eq : negInf = ⊥ := by
  unfold negInf
  simp [Ideal.ofBits, Ideal.ieee]

theorem zero_eq : zero = 0 := by
  unfold zero
  simp [Ideal.ofBits, Ideal.ieee]

theorem one_eq : one = 1 := by
  unfold one
  simp [Ideal.ofBits, Ideal.ieee, -EReal.coe_mul]
  norm_num

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A logit of real rows is a real number. -/
theorem logit_coe (q : Fin 768 → ℝ) (k : Fin 2048 → Fin 768 → ℝ) (h : Fin 12) (j : Fin 2048) :
    logit (fun e => (q e : EReal)) (fun j e => (k j e : EReal)) h j
      = (((∑ d : Fin 64, q (hcol h d) * k j (hcol h d)) * (1 / 8) : ℝ) : EReal) := by
  unfold logit
  rw [eighth_eq, EReal.coe_mul, coe_sum]
  simp only [EReal.coe_mul]

/-- The fold of `max` from -∞ over 2048 real numbers is a real number. -/
theorem fold_max_coe (g : Fin 2048 → ℝ) :
    ∃ M : ℝ, (Finset.univ : Finset (Fin 2048)).fold max negInf (fun j => (g j : EReal)) = (M : EReal) := by
  rw [negInf_eq]
  have h1 : (Finset.univ : Finset (Fin 2048)).fold max (⊥ : EReal) (fun j => (g j : EReal)) ≠ ⊤ := by
    apply ne_of_lt
    rw [Finset.fold_max_lt]
    exact ⟨bot_lt_top, fun x _ => EReal.coe_lt_top _⟩
  have h2 : (Finset.univ : Finset (Fin 2048)).fold max (⊥ : EReal) (fun j => (g j : EReal)) ≠ ⊥ := by
    apply ne_of_gt
    rw [Finset.lt_fold_max]
    exact Or.inr ⟨0, Finset.mem_univ _, EReal.bot_lt_coe _⟩
  exact ⟨_, (EReal.coe_toReal h1 h2).symm⟩

/-- Positive real weights `p` against real values `w`: the weighted sum times the reciprocal of the total weight
    is the sum weighted by the normalised weights. -/
theorem softmax_arrange (p w : Fin 2048 → ℝ) (hp : ∀ j, 0 < p j) :
    (∑ j : Fin 2048, (p j : EReal) * (w j : EReal)) * Ideal.div one (∑ j : Fin 2048, (p j : EReal))
      = ∑ j : Fin 2048, Ideal.div (p j : EReal) (zero + ∑ j : Fin 2048, (p j : EReal)) * (w j : EReal) := by
  have hLpos : 0 < ∑ j : Fin 2048, p j := Finset.sum_pos (fun j _ => hp j) Finset.univ_nonempty
  have hL0 : (∑ j : Fin 2048, p j) ≠ 0 := ne_of_gt hLpos
  have hl : (∑ j : Fin 2048, (p j : EReal) * (w j : EReal)) = ((∑ j : Fin 2048, p j * w j : ℝ) : EReal) := by
    refine Eq.trans ?_ (coe_sum _ _).symm
    exact Finset.sum_congr rfl (fun j _ => (EReal.coe_mul _ _).symm)
  rw [zero_eq, zero_add, one_eq, ← coe_sum, Ideal.div_coe hL0, one_mul, hl, ← EReal.coe_mul, Finset.sum_mul]
  refine Eq.trans (coe_sum Finset.univ (fun j => p j * w j * (1 / ∑ i : Fin 2048, p i))) ?_
  refine Finset.sum_congr rfl (fun j _ => ?_)
  show ((p j * w j * (1 / ∑ i : Fin 2048, p i) : ℝ) : EReal) = _
  rw [Ideal.div_coe hL0, mul_right_comm (p j) (w j), EReal.coe_mul, EReal.coe_mul]

/-- One lane of one head, on real rows: both arrangements reduce to `softmax_arrange`. -/
theorem headK_eq_headR_coe (q : Fin 768 → ℝ) (k v : Fin 2048 → Fin 768 → ℝ) (h : Fin 12) (d : Fin 64) :
    headK (fun e => (q e : EReal)) (fun j e => (k j e : EReal)) (fun j e => (v j e : EReal)) h d
      = headR (fun e => (q e : EReal)) (fun j e => (k j e : EReal)) (fun j e => (v j e : EReal)) h d := by
  obtain ⟨M, hM⟩ := fold_max_coe (fun j => (∑ d : Fin 64, q (hcol h d) * k j (hcol h d)) * (1 / 8))
  have hlogit : logit (fun e => (q e : EReal)) (fun j e => (k j e : EReal)) h
      = fun j => (((∑ d : Fin 64, q (hcol h d) * k j (hcol h d)) * (1 / 8) : ℝ) : EReal) :=
    funext (logit_coe q k h)
  have hmaxK : maxK (fun e => (q e : EReal)) (fun j e => (k j e : EReal)) h = (M : EReal) := by
    unfold maxK; rw [hlogit, hM]
  have hmaxR : maxR (fun e => (q e : EReal)) (fun j e => (k j e : EReal)) h = (M : EReal) := by
    unfold maxR; rw [hlogit, hM, negInf_eq]; exact max_eq_right bot_le
  have hexpK : ∀ j, expK (fun e => (q e : EReal)) (fun j e => (k j e : EReal)) h j
      = ((Real.exp ((∑ d : Fin 64, q (hcol h d) * k j (hcol h d)) * (1 / 8) - M) : ℝ) : EReal) := by
    intro j; unfold expK; rw [hmaxK, logit_coe, ← EReal.coe_sub, Ideal.exp_coe]
  have hexpR : ∀ j, expR (fun e => (q e : EReal)) (fun j e => (k j e : EReal)) h j
      = ((Real.exp ((∑ d : Fin 64, q (hcol h d) * k j (hcol h d)) * (1 / 8) - M) : ℝ) : EReal) := by
    intro j; unfold expR; rw [hmaxR, logit_coe, ← EReal.coe_sub, Ideal.exp_coe]
  unfold headK headR sumK sumR
  simp only [hexpK, hexpR]
  exact softmax_arrange _ _ (fun j => Real.exp_pos _)

theorem headK_eq_headR (qrow : Fin 768 → EReal) (K V : Fin 2048 → Fin 768 → EReal)
    (hq : ∀ e, ∃ r : ℝ, qrow e = (r : EReal)) (hK : ∀ j e, ∃ r : ℝ, K j e = (r : EReal))
    (hV : ∀ j e, ∃ r : ℝ, V j e = (r : EReal)) (h : Fin 12) (d : Fin 64) :
    headK qrow K V h d = headR qrow K V h d := by
  choose q hq using hq
  choose k hk using hK
  choose v hv using hV
  obtain rfl : qrow = fun e => (q e : EReal) := funext hq
  obtain rfl : K = fun j e => (k j e : EReal) := funext fun j => funext (hk j)
  obtain rfl : V = fun j e => (v j e : EReal) := funext fun j => funext (hv j)
  exact headK_eq_headR_coe q k v h d

theorem rowOutK_eq_rowOutR (qrow : Fin 768 → EReal) (K V : Fin 2048 → Fin 768 → EReal)
    (hq : ∀ e, ∃ r : ℝ, qrow e = (r : EReal)) (hK : ∀ j e, ∃ r : ℝ, K j e = (r : EReal))
    (hV : ∀ j e, ∃ r : ℝ, V j e = (r : EReal)) (W : Fin 768 → Fin 768 → EReal) (B : Fin 768 → EReal)
    (f : Fin 768) : rowOutK qrow K V W B f = rowOutR qrow K V W B f := by
  unfold rowOutK rowOutR
  congr 1
  exact Finset.sum_congr rfl (fun e _ => by rw [headK_eq_headR qrow K V hq hK hV])

/-- The joint projection of real arrays is real. -/
theorem proj_real (x : Fin 4 → Fin 2048 → Fin 768 → EReal) (wq : Fin 2304 → Fin 768 → EReal)
    (hx : ∀ b s e, ∃ r : ℝ, x b s e = (r : EReal)) (hw : ∀ f e, ∃ r : ℝ, wq f e = (r : EReal))
    (b : Fin 4) (s : Fin 2048) (f : Fin 2304) : ∃ r : ℝ, proj x wq b s f = (r : EReal) := by
  choose xr hxr using hx
  choose wr hwr using hw
  refine ⟨∑ e : Fin 768, xr b s e * wr f e, ?_⟩
  unfold proj
  rw [coe_sum]
  exact Finset.sum_congr rfl (fun e _ => by rw [hxr, hwr, EReal.coe_mul])

theorem outK_eq_outR (x : Fin 4 → Fin 2048 → Fin 768 → EReal) (wq : Fin 2304 → Fin 768 → EReal)
    (hx : ∀ b s e, ∃ r : ℝ, x b s e = (r : EReal)) (hw : ∀ f e, ∃ r : ℝ, wq f e = (r : EReal))
    (wp : Fin 768 → Fin 768 → EReal) (bp : Fin 768 → EReal) : outK x wq wp bp = outR x wq wp bp := by
  funext b s f
  unfold outK outR
  exact rowOutK_eq_rowOutR _ _ _ (fun e => proj_real x wq hx hw b s _) (fun j e => proj_real x wq hx hw b j _)
    (fun j e => proj_real x wq hx hw b j _) wp bp f

end Cert.Attn

end
-- ==== Proof.FiniteArgs.lean ====
/-
  From the precondition to real entries.

  The precondition is the conjunction, over the four argument arrays, of "every entry has absolute value below +∞",
  each written as a reduction by `and` of the entrywise comparison, and the claim that the conjunction is 1.  A
  conjunction that is 1 has both conjuncts 1; a reduction by `and` over all axes that is 1 met a 1 at every entry; and
  an extended real `x` with `max x (-x) < ⊤` is neither infinity, hence a real number.
-/
import proofs.«149045_j6854767804979_2_alg».proof.Defs
import Idealize.ShloMosaic.Lib.ReduceAll
import Idealize.ShloMosaic.Lib.ValueIdx

noncomputable section

namespace Cert.Finite

open Idealize.ShloMosaic Idealize.SL.Sem Cert.Pre_finite_inputs

/-- The rank-0 shape has one index. -/
instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If the printed predicate is 1 on four arrays, every entry of each is a real number. -/
theorem fn_all [Facts] (a0 : FVec Ideal S4x2048x768 .f32) (a1 : FVec Ideal S2304x768 .f32)
    (a2 : FVec Ideal S768x768 .f32) (a3 : FVec Ideal S768 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_top (a0 i) (Host.reduce_andi_all _ _ _ _ _ h1 i)
  · exact real_of_abs_lt_top (a1 i) (Host.reduce_andi_all _ _ _ _ _ h2 i)
  · exact real_of_abs_lt_top (a2 i) (Host.reduce_andi_all _ _ _ _ _ h3 i)
  · exact real_of_abs_lt_top (a3 i) (Host.reduce_andi_all _ _ _ _ _ h4 i)

variable [Facts]

/-- Under the certificate's precondition every entry of the first argument array is a real number. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x2048x768.Idx) :
    ∃ r : ℝ, m ((c.tc : Thread Cert.KernelIdeal.nD Cert.KernelIdeal.τ).loc Cert.KernelIdeal.main_arg0) i = (r : EReal) :=
  (fn_all _ _ _ _ (h c)).1 i

/-- Under the certificate's precondition every entry of the second argument array is a real number. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2304x768.Idx) :
    ∃ r : ℝ, m ((c.tc : Thread Cert.KernelIdeal.nD Cert.KernelIdeal.τ).loc Cert.KernelIdeal.main_arg1) i = (r : EReal) :=
  (fn_all _ _ _ _ (h c)).2.1 i

end Cert.Finite

end
-- ==== Proof.HostReads.lean ====
/-
  What the host operations around the two kernel regions leave in their result buffers, read at an index.

  Before the first region the 4 × 2048 × 768 input is re-laid as 8192 × 768 rows (row `2048 b + s` is row `s` of batch
  `b`: the two have the same row-major position) and narrowed, and the joint weight is narrowed; on the extended reals a
  change of float format is the identity, so each result buffer holds the argument's entries.  Before the second region
  the 8192 × 2304 projection is re-laid as 4 × 2048 × 2304, the output weight is narrowed, and the bias gets a leading
  unit axis.
-/
import proofs.«149045_j6854767804979_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Idealize.ShloMosaic Idealize.SL.Sem Cert.KernelIdeal Cert.KernelIdeal.Gen ValueIdx

/-- The narrowed, re-laid input: row `2048 b + s`, column `e` is the input at `(b, s, e)`. -/
theorem after0_v1 (W : Valuation τ sig (Elt Ideal)) (b : Fin 4) (s : Fin 2048) (e : Fin 768) :
    (StableHlo.after (hostOps0 (F := Ideal)) W (Proc.devRef .tc main_v1) : S8192x768.Idx → EReal)
        (ix2 (⟨b.val * 2048 + s.val, by omega⟩ : Fin 8192) e)
      = (W (Proc.devRef .tc main_arg0) : S4x2048x768.Idx → EReal) (ix3 b s e) := by
  have e1 : (StableHlo.after (hostOps0 (F := Ideal)) W (Proc.devRef .tc main_v1) : S8192x768.Idx → EReal)
      = shapeCast S8192x768 (W (Proc.devRef .tc main_arg0) : S4x2048x768.Idx → EReal) shapeCasts_S4x2048x768_S8192x768 := by
    simp only [hostOps0]
    after_results
    rfl
  refine (congrFun e1 _).trans ?_
  refine shapeCast_apply (s := S4x2048x768) (t := S8192x768) _ _ _ (ix3 b s e) ?_
  show (S4x2048x768.rowMajor (ix3 b s e)).val
    = (S8192x768.rowMajor (ix2 (⟨b.val * 2048 + s.val, by omega⟩ : Fin 8192) e)).val
  rw [Shape.rowMajor_val_three, Shape.rowMajor_val_two]
  rfl

/-- The narrowed joint weight holds the joint weight's entries. -/
theorem after0_v2 (W : Valuation τ sig (Elt Ideal)) (g : Fin 2304) (e : Fin 768) :
    (StableHlo.after (hostOps0 (F := Ideal)) W (Proc.devRef .tc main_v2) : S2304x768.Idx → EReal) (ix2 g e)
      = (W (Proc.devRef .tc main_arg1) : S2304x768.Idx → EReal) (ix2 g e) := by
  have e1 : (StableHlo.after (hostOps0 (F := Ideal)) W (Proc.devRef .tc main_v2) : S2304x768.Idx → EReal)
      = (W (Proc.devRef .tc main_arg1) : S2304x768.Idx → EReal) := by
    simp only [hostOps0]
    after_results
    rfl
  exact congrFun e1 _

/-- The projection re-laid by batch: `(b, s, g)` is row `2048 b + s`, column `g`. -/
theorem after1_v4 (W : Valuation τ sig (Elt Ideal)) (b : Fin 4) (s : Fin 2048) (g : Fin 2304) :
    (StableHlo.after (hostOps1 (F := Ideal)) W (Proc.devRef .tc main_v4) : S4x2048x2304.Idx → EReal) (ix3 b s g)
      = (W (Proc.devRef .tc main_v3) : S8192x2304.Idx → EReal) (ix2 (⟨b.val * 2048 + s.val, by omega⟩ : Fin 8192) g) := by
  have e1 : (StableHlo.after (hostOps1 (F := Ideal)) W (Proc.devRef .tc main_v4) : S4x2048x2304.Idx → EReal)
      = shapeCast S4x2048x2304 (W (Proc.devRef .tc main_v3) : S8192x2304.Idx → EReal) shapeCasts_S8192x2304_S4x2048x2304 := by
    simp only [hostOps1]
    after_results
    rfl
  refine (congrFun e1 _).trans ?_
  refine shapeCast_apply (s := S8192x2304) (t := S4x2048x2304) _ _ _
    (ix2 (⟨b.val * 2048 + s.val, by omega⟩ : Fin 8192) g) ?_
  show (S8192x2304.rowMajor (ix2 (⟨b.val * 2048 + s.val, by omega⟩ : Fin 8192) g)).val
    = (S4x2048x2304.rowMajor (ix3 b s g)).val
  rw [Shape.rowMajor_val_three, Shape.rowMajor_val_two]
  rfl

/-- The narrowed output weight holds the output weight's entries. -/
theorem after1_v5 (W : Valuation τ sig (Elt Ideal)) (f e : Fin 768) :
    (StableHlo.after (hostOps1 (F := Ideal)) W (Proc.devRef .tc main_v5) : S768x768.Idx → EReal) (ix2 f e)
      = (W (Proc.devRef .tc main_arg2) : S768x768.Idx → EReal) (ix2 f e) := by
  have e1 : (StableHlo.after (hostOps1 (F := Ideal)) W (Proc.devRef .tc main_v5) : S768x768.Idx → EReal)
      = (W (Proc.devRef .tc main_arg2) : S768x768.Idx → EReal) := by
    simp only [hostOps1]
    after_results
    rfl
  exact congrFun e1 _

/-- The bias as a one-row matrix. -/
theorem after1_v6 (W : Valuation τ sig (Elt Ideal)) (f : Fin 768) :
    (StableHlo.after (hostOps1 (F := Ideal)) W (Proc.devRef .tc main_v6) : S1x768.Idx → EReal) (ix2 (0 : Fin 1) f)
      = (W (Proc.devRef .tc main_arg3) : S768.Idx → EReal) (ix1 f) := by
  have e1 : (StableHlo.after (hostOps1 (F := Ideal)) W (Proc.devRef .tc main_v6) : S1x768.Idx → EReal)
      = shapeCast S1x768 (W (Proc.devRef .tc main_arg3) : S768.Idx → EReal) shapeCasts_S768_S1x768 := by
    simp only [hostOps1]
    after_results
    rfl
  refine (congrFun e1 _).trans ?_
  refine shapeCast_apply (s := S768) (t := S1x768) _ _ _ (ix1 f) ?_
  show (S768.rowMajor (ix1 f)).val = (S1x768.rowMajor (ix2 (0 : Fin 1) f)).val
  rw [Shape.rowMajor_val_one, Shape.rowMajor_val_two]
  show f.val = 0 * 768 + f.val
  omega

end Cert.KernelIdeal.Host

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.KernelValue0.lean ====
/-
  The projection kernel's stored block read at an index, over the extended reals.

  The block is the product of the row block with the transposed weight block into a zero accumulator, then narrowed:
  the narrowing is the identity on extended reals, the two same-shape re-layouts are identities, and the product at
  (p, g) is the inner product of row p of the rows with row g of the weights.
-/
import proofs.«149045_j6854767804979_2_alg».proof.Proof.BodyValI
import proofs.«149045_j6854767804979_2_alg».proof.Proof.AttnSpec
import proofs.«149045_j6854767804979_2_alg».proof.Proof.LibMatmulABt
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.KValue

open Idealize.ShloMosaic Idealize.ShloMosaic.ValueIdx Idealize.SL.Sem Cert.KernelIdeal Cert.KernelIdeal.Gen
open scoped BigOperators

/-- The projection kernel's stored block at (p, g): the inner product of row p of the loaded rows with row g of the
    loaded weights. -/
theorem val0_apply (x0 : Vec Ideal S1024x768 .bf16) (x1 : Vec Ideal S2304x768 .bf16) (p : Fin 1024) (g : Fin 2304) :
    Cert.KernelIdeal.Body.val0 (F := Ideal) x0 x1 (ix2 p g) = ∑ e : Fin 768, x0 (ix2 p e) * x1 (ix2 g e) := by
  unfold Cert.KernelIdeal.Body.val0 k0_pay1
  show matmul dot_S1024x768_S2304x768_S1024x2304_1_1_0_0_n_n none
      (shapeCast S1024x768 x0 Facts₀.shapeCasts_S1024x768_S1024x768)
      (shapeCast S2304x768 x1 Facts₀.shapeCasts_S2304x768_S2304x768)
      (constant (F := Ideal) S1024x2304 .f32 0x00000000#32) (ix2 p g) = _
  rw [shapeCast_self, shapeCast_self]
  exact Cert.LibMatmulABt.matmul_zero_abt _ x0 x1 p g

end Cert.KernelIdeal.KValue

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibRowMax.lean ====
/-
  The maximum along the rows of a matrix, read at a row, over the extended reals.

  A kernel takes the maximum of an `[a, b]` block over its second axis by a fold of `max` from the accumulator's
  value; the host takes it by a one-operand reduction whose body is `max`, from its initial value. Both fold a
  commutative and associative operation over the `b` entries of row `p`, so read at `p` both are the fold of `max`
  over `k ↦ x (p, k)`, whatever order the definitions walk the entries in. Stated for any extents `a`, `b`.
-/
import Idealize.ShloMosaic.Lib.ValueIdx
import Idealize.ShloMosaic.PureOps.Ideal.Laws

noncomputable section

namespace Cert.LibRowMax

open Idealize.ShloMosaic Idealize.ShloMosaic.ValueIdx

/-- The source index a reduction over the second axis reads for result row `p` and coordinate `k` is `(p, k)`. -/
theorem lift_row {a b : ℕ} (h : Shape.Reduces ⟨2, ![a, b]⟩ [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A kernel's maximum of an `[a, b]` block over its second axis is, at row `p`, the fold of `max` from the
    accumulator's value over the `b` entries of that row. -/
theorem multiReduction_maximumf_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_row h p k)))

/-- The host's reduction with body `max` of an `[a, b]` array over its second axis is, at row `p`, the fold of `max`
    from the initial value over the `b` entries of that row. -/
theorem hostReduce_maximumf_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

end Cert.LibRowMax

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.KernelHead.lean ====
/-
  One attention head of the fused kernel, read at an index, over the extended reals.

  A head at column offset o takes the 64 columns o … o + 63 of the query, key and value matrices. Its value is a chain
  of whole-array steps: the scaled logits (the query slice times the transposed key slice, times 1/8); their maximum
  along each row, kept as a column and spread back along the row; the exponential of the shifted logits; the sum of
  those along each row, kept as a column; the reciprocal of that column; the product of the exponentials with the
  value slice; and that product scaled row by row by the reciprocal. Each step is read at an index by the elementary
  lemma of its operation, and the composition at (p, d) is the arrangement of the softmax average in which the
  reciprocal of the sum of the weights is taken last.
-/
import proofs.«149045_j6854767804979_2_alg».proof.Proof.BodyValI
import proofs.«149045_j6854767804979_2_alg».proof.Proof.AttnSpec
import proofs.«149045_j6854767804979_2_alg».proof.Proof.LibMatmulABt
import proofs.«149045_j6854767804979_2_alg».proof.Proof.LibPlainMatmul
import proofs.«149045_j6854767804979_2_alg».proof.Proof.LibRowMax
import proofs.«149045_j6854767804979_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.KValue

open Idealize.ShloMosaic Idealize.ShloMosaic.ValueIdx Idealize.SL.Sem Cert.KernelIdeal Cert.KernelIdeal.Gen
open scoped BigOperators

/-! ## The steps, as functions of whole arrays -/

/-- The scaled logits of the head at column offset `o`: the query slice times the transposed key slice, times 1/8. -/
def scoreAt (o : ℕ) (hq : S1024x768.Slices ![0, o] S1024x64) (hk : S2048x768.Slices ![0, o] S2048x64)
    (Q : FVec Ideal S1024x768 .bf16) (K : FVec Ideal S2048x768 .bf16) : FVec Ideal S1024x2048 .f32 :=
  mulf (matmul dot_S1024x64_S2048x64_S1024x2048_1_1_0_0_n_n none (extractStridedSlice S1024x64 ![0, o] Q hq)
      (extractStridedSlice S2048x64 ![0, o] K hk) (constant S1024x2048 .f32 0x00000000#32))
    (broadcast S1024x2048 (Scalar.ofBits .f32 0x3E000000#32))

/-- The exponentials of the logits shifted by their row maximum. -/
def expOf (s : FVec Ideal S1024x2048 .f32) : FVec Ideal S1024x2048 .f32 :=
  exp (subf s (broadcastTo S1024x2048
    (shapeCast S1024x1 (multiReduction .maximumf [1] S1024 s 0xFF800000#32 reduces_S1024x2048_S1024 (.inl rfl) rfl)
      shapeCasts_S1024_S1024x1) broadcasts_S1024x1_S1024x2048))

/-- The row sums of the weights, kept as a column. -/
def sumColOf (e : FVec Ideal S1024x2048 .f32) : FVec Ideal S1024x1 .f32 :=
  shapeCast S1024x1 (multiReduction .add [1] S1024 e 0x00000000#32 reduces_S1024x2048_S1024 (.inl rfl) rfl)
    shapeCasts_S1024_S1024x1

/-- The reciprocals of a column. -/
def recipOf (c : FVec Ideal S1024x1 .f32) : FVec Ideal S1024x1 .f32 :=
  divf (broadcast S1024x1 (Scalar.ofBits .f32 0x3F800000#32)) c

/-- The weights times a value slice. -/
def pvOf (vl : FVec Ideal S2048x64 .bf16) (e : FVec Ideal S1024x2048 .f32) : FVec Ideal S1024x64 .f32 :=
  matmul dot_S1024x2048_S2048x64_S1024x64_1_0_0_1_n_n none (truncf .bf16 e bitsLt_bf16_f32) vl
    (constant S1024x64 .f32 0x00000000#32)

/-- A block scaled row by row by a column. -/
def scaleOf (pv : FVec Ideal S1024x64 .f32) (r : FVec Ideal S1024x1 .f32) : FVec Ideal S1024x64 .f32 :=
  mulf pv (broadcastTo S1024x64 r broadcasts_S1024x1_S1024x64)

/-- The head at column offset `o`. -/
def headAt (o : ℕ) (hq : S1024x768.Slices ![0, o] S1024x64) (hk : S2048x768.Slices ![0, o] S2048x64)
    (hv : S2048x768.Slices ![0, o] S2048x64)
    (Q : FVec Ideal S1024x768 .bf16) (K V : FVec Ideal S2048x768 .bf16) : FVec Ideal S1024x64 .bf16 :=
  truncf .bf16 (scaleOf (pvOf (extractStridedSlice S2048x64 ![0, o] V hv) (expOf (scoreAt o hq hk Q K)))
    (recipOf (sumColOf (expOf (scoreAt o hq hk Q K))))) bitsLt_bf16_f32

/-! ## The steps read at an index -/

/-- The scaled logit at (p, j) of the head whose columns start at `o = 64 h`. -/
theorem scoreAt_apply (o : ℕ) (hq : S1024x768.Slices ![0, o] S1024x64) (hk : S2048x768.Slices ![0, o] S2048x64)
    (Q : FVec Ideal S1024x768 .bf16) (K : FVec Ideal S2048x768 .bf16) (h : Fin 12) (ho : o = h.val * 64)
    (p : Fin 1024) (j : Fin 2048) :
    scoreAt o hq hk Q K (ix2 p j) = Cert.Attn.logit (fun e => Q (ix2 p e)) (fun j e => K (ix2 j e)) h j := by
  have hm : matmul dot_S1024x64_S2048x64_S1024x2048_1_1_0_0_n_n none (extractStridedSlice S1024x64 ![0, o] Q hq)
      (extractStridedSlice S2048x64 ![0, o] K hk) (constant (F := Ideal) S1024x2048 .f32 0x00000000#32) (ix2 p j)
      = ∑ d : Fin 64, extractStridedSlice S1024x64 ![0, o] Q hq (ix2 p d) * extractStridedSlice S2048x64 ![0, o] K hk (ix2 j d) :=
    Cert.LibMatmulABt.matmul_zero_abt _ _ _ p j
  show matmul dot_S1024x64_S2048x64_S1024x2048_1_1_0_0_n_n none (extractStridedSlice S1024x64 ![0, o] Q hq)
      (extractStridedSlice S2048x64 ![0, o] K hk) (constant (F := Ideal) S1024x2048 .f32 0x00000000#32) (ix2 p j)
      * Ideal.ofBits .f32 0x3E000000#32
    = (∑ d : Fin 64, Q (ix2 p (Cert.Attn.hcol h d)) * K (ix2 j (Cert.Attn.hcol h d))) * Ideal.ofBits .f32 0x3E000000#32
  rw [hm]
  refine congrArg (· * Ideal.ofBits .f32 0x3E000000#32) (Finset.sum_congr rfl fun d _ => ?_)
  rw [slice2_axis1_apply o Q hq p d (Cert.Attn.hcol h d) (by rw [ho]; rfl),
    slice2_axis1_apply o K hk j d (Cert.Attn.hcol h d) (by rw [ho]; rfl)]

/-- The weight at (p, j): the exponential of the logit less the fold of `max` from -∞ over the row. -/
theorem expOf_apply (s : FVec Ideal S1024x2048 .f32) (p : Fin 1024) (j : Fin 2048) :
    expOf s (ix2 p j)
      = Ideal.exp (s (ix2 p j) - (Finset.univ : Finset (Fin 2048)).fold max Cert.Attn.negInf (fun k => s (ix2 p k))) := by
  show Ideal.exp (s (ix2 p j) - broadcastTo S1024x2048
    (shapeCast S1024x1 (multiReduction .maximumf [1] S1024 s 0xFF800000#32 reduces_S1024x2048_S1024 (.inl rfl) rfl)
      shapeCasts_S1024_S1024x1) broadcasts_S1024x1_S1024x2048 (ix2 p j)) = _
  have hb : broadcastTo S1024x2048
      (shapeCast S1024x1 (multiReduction .maximumf [1] S1024 s 0xFF800000#32 reduces_S1024x2048_S1024 (.inl rfl) rfl)
        shapeCasts_S1024_S1024x1) broadcasts_S1024x1_S1024x2048 (ix2 p j)
      = (Finset.univ : Finset (Fin 2048)).fold max Cert.Attn.negInf (fun k => s (ix2 p k)) :=
    (Cert.LibKeepdims.broadcastTo_a1_ab_apply _ _ p j).trans
      ((Cert.LibKeepdims.shapeCast_a_a1_apply _ _ p (0 : Fin 1)).trans
        (Cert.LibRowMax.multiReduction_maximumf_row s _ _ _ _ p))
  rw [hb]

/-- The column of row sums at (p, u): the sum of row p. -/
theorem sumColOf_apply (e : FVec Ideal S1024x2048 .f32) (p : Fin 1024) (u : Fin 1) :
    sumColOf e (ix2 p u) = ∑ j : Fin 2048, e (ix2 p j) :=
  (Cert.LibKeepdims.shapeCast_a_a1_apply _ _ p u).trans (Cert.LibKeepdims.multiReduction_add_row e _ _ _ _ p)

/-- The reciprocal column at an index. -/
theorem recipOf_apply (c : FVec Ideal S1024x1 .f32) (i : S1024x1.Idx) :
    recipOf c i = Ideal.div Cert.Attn.one (c i) := rfl

/-- The weights times a value slice at (p, d). -/
theorem pvOf_apply (vl : FVec Ideal S2048x64 .bf16) (e : FVec Ideal S1024x2048 .f32) (p : Fin 1024) (d : Fin 64) :
    pvOf vl e (ix2 p d) = ∑ j : Fin 2048, e (ix2 p j) * vl (ix2 j d) :=
  Cert.LibPlainMatmul.matmul_zero_plain _ (truncf .bf16 e bitsLt_bf16_f32) vl p d

/-- A block scaled by a column at (p, d). -/
theorem scaleOf_apply (pv : FVec Ideal S1024x64 .f32) (r : FVec Ideal S1024x1 .f32) (p : Fin 1024) (d : Fin 64) :
    scaleOf pv r (ix2 p d) = pv (ix2 p d) * r (ix2 p (0 : Fin 1)) := by
  show pv (ix2 p d) * broadcastTo S1024x64 r broadcasts_S1024x1_S1024x64 (ix2 p d) = _
  rw [Cert.LibKeepdims.broadcastTo_a1_ab_apply]

/-! ## The head read at an index -/

/-- The head whose columns start at `o = 64 h`, at (p, d): lane d of head h of the softmax average of the values, the
    reciprocal of the sum of the weights taken last. -/
theorem headAt_apply (o : ℕ) (hq : S1024x768.Slices ![0, o] S1024x64) (hk : S2048x768.Slices ![0, o] S2048x64)
    (hv : S2048x768.Slices ![0, o] S2048x64)
    (Q : FVec Ideal S1024x768 .bf16) (K V : FVec Ideal S2048x768 .bf16) (h : Fin 12) (ho : o = h.val * 64)
    (p : Fin 1024) (d : Fin 64) :
    headAt o hq hk hv Q K V (ix2 p d)
      = Cert.Attn.headK (fun e => Q (ix2 p e)) (fun j e => K (ix2 j e)) (fun j e => V (ix2 j e)) h d := by
  have hs : ∀ j : Fin 2048, scoreAt o hq hk Q K (ix2 p j)
      = Cert.Attn.logit (fun e => Q (ix2 p e)) (fun j e => K (ix2 j e)) h j := fun j => scoreAt_apply o hq hk Q K h ho p j
  have he : ∀ j : Fin 2048, expOf (scoreAt o hq hk Q K) (ix2 p j)
      = Cert.Attn.expK (fun e => Q (ix2 p e)) (fun j e => K (ix2 j e)) h j := fun j => by
    rw [expOf_apply, hs j]
    unfold Cert.Attn.expK Cert.Attn.maxK
    rw [show (fun k => scoreAt o hq hk Q K (ix2 p k)) = Cert.Attn.logit (fun e => Q (ix2 p e)) (fun j e => K (ix2 j e)) h from
      funext hs]
  show scaleOf (pvOf (extractStridedSlice S2048x64 ![0, o] V hv) (expOf (scoreAt o hq hk Q K)))
    (recipOf (sumColOf (expOf (scoreAt o hq hk Q K)))) (ix2 p d) = _
  rw [scaleOf_apply, pvOf_apply, recipOf_apply, sumColOf_apply]
  unfold Cert.Attn.headK Cert.Attn.sumK
  rw [Finset.sum_congr rfl fun j _ => he j]
  refine congrArg (· * _) (Finset.sum_congr rfl fun j _ => ?_)
  rw [he j, slice2_axis1_apply o V hv j d (Cert.Attn.hcol h d) (by rw [ho]; rfl)]

end Cert.KernelIdeal.KValue

end
-- ==== Proof.KernelValue.lean ====
/-
  The attention kernel's stored block read at an index, over the extended reals.

  The block is assembled from twelve heads, each the same chain of steps at its own column offset 64 h, laid side by
  side along the columns into a 768-wide matrix; that matrix times the transposed projection weights, plus the bias
  row repeated down the rows, with a leading unit axis added. At (0, p, f) this is the sum over the 768 columns e of
  lane (e mod 64) of head (e div 64) of row p, times the weight (f, e), plus the bias at f.
-/
import proofs.«149045_j6854767804979_2_alg».proof.Proof.KernelHead

set_option synthInstance.maxSize 4096

noncomputable section

namespace Cert.KernelIdeal.KValue

open Idealize.ShloMosaic Idealize.ShloMosaic.ValueIdx Idealize.SL.Sem Cert.KernelIdeal Cert.KernelIdeal.Gen
open scoped BigOperators

/-! ## The three loaded blocks re-laid as matrices -/

theorem pay4_apply (v0 : Vec Ideal S1x1024x768 .bf16) (p : Fin 1024) (e : Fin 768) :
    k1_pay4 (F := Ideal) v0 (ix2 p e) = v0 (ix3 (0 : Fin 1) p e) :=
  shapeCast_1ab_ab_apply v0 _ p e

theorem pay5_apply (v2 : Vec Ideal S1x2048x768 .bf16) (j : Fin 2048) (e : Fin 768) :
    k1_pay5 (F := Ideal) v2 (ix2 j e) = v2 (ix3 (0 : Fin 1) j e) :=
  shapeCast_1ab_ab_apply v2 _ j e

theorem pay6_apply (v4 : Vec Ideal S1x2048x768 .bf16) (j : Fin 2048) (e : Fin 768) :
    k1_pay6 (F := Ideal) v4 (ix2 j e) = v4 (ix3 (0 : Fin 1) j e) :=
  shapeCast_1ab_ab_apply v4 _ j e

/-! ## The twelve heads -/

/-- Head `n` of the query, key and value matrices: the head at column offset `64 n`. -/
def headsOf (Q : FVec Ideal S1024x768 .bf16) (K V : FVec Ideal S2048x768 .bf16) :
    Fin 12 → (S1024x64.Idx → Ideal .bf16)
  | ⟨0, _⟩ => headAt 0 slices_S1024x768_o0_0_S1024x64 slices_S2048x768_o0_0_S2048x64 slices_S2048x768_o0_0_S2048x64 Q K V
  | ⟨1, _⟩ => headAt 64 slices_S1024x768_o0_64_S1024x64 slices_S2048x768_o0_64_S2048x64 slices_S2048x768_o0_64_S2048x64 Q K V
  | ⟨2, _⟩ => headAt 128 slices_S1024x768_o0_128_S1024x64 slices_S2048x768_o0_128_S2048x64 slices_S2048x768_o0_128_S2048x64 Q K V
  | ⟨3, _⟩ => headAt 192 slices_S1024x768_o0_192_S1024x64 slices_S2048x768_o0_192_S2048x64 slices_S2048x768_o0_192_S2048x64 Q K V
  | ⟨4, _⟩ => headAt 256 slices_S1024x768_o0_256_S1024x64 slices_S2048x768_o0_256_S2048x64 slices_S2048x768_o0_256_S2048x64 Q K V
  | ⟨5, _⟩ => headAt 320 slices_S1024x768_o0_320_S1024x64 slices_S2048x768_o0_320_S2048x64 slices_S2048x768_o0_320_S2048x64 Q K V
  | ⟨6, _⟩ => headAt 384 slices_S1024x768_o0_384_S1024x64 slices_S2048x768_o0_384_S2048x64 slices_S2048x768_o0_384_S2048x64 Q K V
  | ⟨7, _⟩ => headAt 448 slices_S1024x768_o0_448_S1024x64 slices_S2048x768_o0_448_S2048x64 slices_S2048x768_o0_448_S2048x64 Q K V
  | ⟨8, _⟩ => headAt 512 slices_S1024x768_o0_512_S1024x64 slices_S2048x768_o0_512_S2048x64 slices_S2048x768_o0_512_S2048x64 Q K V
  | ⟨9, _⟩ => headAt 576 slices_S1024x768_o0_576_S1024x64 slices_S2048x768_o0_576_S2048x64 slices_S2048x768_o0_576_S2048x64 Q K V
  | ⟨10, _⟩ => headAt 640 slices_S1024x768_o0_640_S1024x64 slices_S2048x768_o0_640_S2048x64 slices_S2048x768_o0_640_S2048x64 Q K V
  | ⟨11, _⟩ => headAt 704 slices_S1024x768_o0_704_S1024x64 slices_S2048x768_o0_704_S2048x64 slices_S2048x768_o0_704_S2048x64 Q K V
  | ⟨_ + 12, h⟩ => absurd h (Nat.not_lt.2 (Nat.le_add_left _ _))

/-- Head `n` at (p, d). -/
theorem headsOf_apply (Q : FVec Ideal S1024x768 .bf16) (K V : FVec Ideal S2048x768 .bf16) (n : Fin 12)
    (p : Fin 1024) (d : Fin 64) :
    headsOf Q K V n (ix2 p d)
      = Cert.Attn.headK (fun e => Q (ix2 p e)) (fun j e => K (ix2 j e)) (fun j e => V (ix2 j e)) n d := by
  match n with
  | ⟨0, _⟩ => exact headAt_apply 0 _ _ _ Q K V ⟨0, by omega⟩ rfl p d
  | ⟨1, _⟩ => exact headAt_apply 64 _ _ _ Q K V ⟨1, by omega⟩ rfl p d
  | ⟨2, _⟩ => exact headAt_apply 128 _ _ _ Q K V ⟨2, by omega⟩ rfl p d
  | ⟨3, _⟩ => exact headAt_apply 192 _ _ _ Q K V ⟨3, by omega⟩ rfl p d
  | ⟨4, _⟩ => exact headAt_apply 256 _ _ _ Q K V ⟨4, by omega⟩ rfl p d
  | ⟨5, _⟩ => exact headAt_apply 320 _ _ _ Q K V ⟨5, by omega⟩ rfl p d
  | ⟨6, _⟩ => exact headAt_apply 384 _ _ _ Q K V ⟨6, by omega⟩ rfl p d
  | ⟨7, _⟩ => exact headAt_apply 448 _ _ _ Q K V ⟨7, by omega⟩ rfl p d
  | ⟨8, _⟩ => exact headAt_apply 512 _ _ _ Q K V ⟨8, by omega⟩ rfl p d
  | ⟨9, _⟩ => exact headAt_apply 576 _ _ _ Q K V ⟨9, by omega⟩ rfl p d
  | ⟨10, _⟩ => exact headAt_apply 640 _ _ _ Q K V ⟨10, by omega⟩ rfl p d
  | ⟨11, _⟩ => exact headAt_apply 704 _ _ _ Q K V ⟨11, by omega⟩ rfl p d

/-- The heads side by side. -/
def attnOf (Q : FVec Ideal S1024x768 .bf16) (K V : FVec Ideal S2048x768 .bf16) : FVec Ideal S1024x768 .bf16 :=
  concatenate S1024x768 1
    (List.ofFn fun n : Fin 12 => (⟨S1024x64, headsOf Q K V n⟩ : (s : Shape) × (s.Idx → Ideal .bf16)))
    concatenates_S1024x64_S1024x64_S1024x64_S1024x64_S1024x64_S1024x64_S1024x64_S1024x64_S1024x64_S1024x64_S1024x64_S1024x64_S1024x768_d1

/-- The heads side by side at (p, e): lane `e mod 64` of head `e div 64`. -/
theorem attnOf_apply (Q : FVec Ideal S1024x768 .bf16) (K V : FVec Ideal S2048x768 .bf16) (p : Fin 1024) (e : Fin 768) :
    attnOf Q K V (ix2 p e)
      = Cert.Attn.headK (fun e => Q (ix2 p e)) (fun j e => K (ix2 j e)) (fun j e => V (ix2 j e))
          (Cert.Attn.headOf e) (Cert.Attn.laneOf e) := by
  unfold attnOf
  refine (concatenate_ofFn_apply (t := S1024x768) (s₁ := S1024x64) (1 : Fin 2) (headsOf Q K V) _ rfl 64 rfl (ix2 p e) (Cert.Attn.headOf e) rfl
    (ix2 p (Cert.Attn.laneOf e)) rfl (fun b hb => ?_)).trans (headsOf_apply Q K V _ p _)
  match b with
  | ⟨0, _⟩ => rfl
  | ⟨1, _⟩ => exact absurd rfl hb

/-! ## The stored block -/

/-- The stored block is the projection of the heads side by side, plus the bias. -/
theorem val1_eq (v0 : Vec Ideal S1x1024x768 .bf16) (v2 v4 : Vec Ideal S1x2048x768 .bf16)
    (v247 : Vec Ideal S768x768 .bf16) (v250 : Vec Ideal S1x768 .f32) :
    Cert.KernelIdeal.Body.val1 (F := Ideal) v0 v2 v4 v247 v250
      = shapeCast S1x1024x768
          (addf (matmul dot_S1024x768_S768x768_S1024x768_1_1_0_0_n_n none
              (attnOf (k1_pay4 v0) (k1_pay5 v2) (k1_pay6 v4))
              (shapeCast S768x768 v247 shapeCasts_S768x768_S768x768 : FVec Ideal S768x768 .bf16) (constant S1024x768 .f32 0x00000000#32))
            (broadcastTo S1024x768 (shapeCast S1x768 v250 shapeCasts_S1x768_S1x768 : FVec Ideal S1x768 .f32) broadcasts_S1x768_S1024x768))
          shapeCasts_S1024x768_S1x1024x768 := rfl

/-- The attention kernel's stored block at (0, p, f). -/
theorem val1_apply (v0 : Vec Ideal S1x1024x768 .bf16) (v2 v4 : Vec Ideal S1x2048x768 .bf16)
    (v247 : Vec Ideal S768x768 .bf16) (v250 : Vec Ideal S1x768 .f32) (p : Fin 1024) (f : Fin 768) :
    Cert.KernelIdeal.Body.val1 (F := Ideal) v0 v2 v4 v247 v250 (ix3 (0 : Fin 1) p f)
      = Cert.Attn.rowOutK (fun e => v0 (ix3 (0 : Fin 1) p e)) (fun j e => v2 (ix3 (0 : Fin 1) j e))
          (fun j e => v4 (ix3 (0 : Fin 1) j e)) (fun f e => v247 (ix2 f e)) (fun f => v250 (ix2 (0 : Fin 1) f)) f := by
  rw [val1_eq]
  refine (shapeCast_ab_1ab_apply _ _ (0 : Fin 1) p f).trans ?_
  have h1 : matmul dot_S1024x768_S768x768_S1024x768_1_1_0_0_n_n none
      (attnOf (k1_pay4 v0) (k1_pay5 v2) (k1_pay6 v4))
      (shapeCast S768x768 v247 shapeCasts_S768x768_S768x768 : FVec Ideal S768x768 .bf16) (constant (F := Ideal) S1024x768 .f32 0x00000000#32) (ix2 p f)
      = ∑ e : Fin 768, attnOf (k1_pay4 v0) (k1_pay5 v2) (k1_pay6 v4) (ix2 p e) * v247 (ix2 f e) := by
    rw [shapeCast_self]
    exact Cert.LibMatmulABt.matmul_zero_abt _ _ v247 p f
  have h2 : broadcastTo S1024x768 (shapeCast S1x768 v250 shapeCasts_S1x768_S1x768 : FVec Ideal S1x768 .f32) broadcasts_S1x768_S1024x768 (ix2 p f)
      = v250 (ix2 (0 : Fin 1) f) := by
    rw [shapeCast_self]
    exact broadcastTo_apply v250 _ (ix2 p f) (ix2 (0 : Fin 1) f) (fun ax => match ax with
      | ⟨0, _⟩ => rfl
      | ⟨1, _⟩ => rfl)
  show matmul dot_S1024x768_S768x768_S1024x768_1_1_0_0_n_n none
      (attnOf (k1_pay4 v0) (k1_pay5 v2) (k1_pay6 v4))
      (shapeCast S768x768 v247 shapeCasts_S768x768_S768x768 : FVec Ideal S768x768 .bf16) (constant (F := Ideal) S1024x768 .f32 0x00000000#32) (ix2 p f)
    + broadcastTo S1024x768 (shapeCast S1x768 v250 shapeCasts_S1x768_S1x768 : FVec Ideal S1x768 .f32) broadcasts_S1x768_S1024x768 (ix2 p f) = _
  rw [h1, h2]
  unfold Cert.Attn.rowOutK
  refine congrArg (· + v250 (ix2 (0 : Fin 1) f)) (Finset.sum_congr rfl fun e _ => ?_)
  rw [attnOf_apply]
  have hq : (fun e => k1_pay4 (F := Ideal) v0 (ix2 p e)) = fun e => v0 (ix3 (0 : Fin 1) p e) :=
    funext fun e => pay4_apply v0 p e
  have hk : (fun j e => k1_pay5 (F := Ideal) v2 (ix2 j e)) = fun j e => v2 (ix3 (0 : Fin 1) j e) :=
    funext fun j => funext fun e => pay5_apply v2 j e
  have hv : (fun j e => k1_pay6 (F := Ideal) v4 (ix2 j e)) = fun j e => v4 (ix3 (0 : Fin 1) j e) :=
    funext fun j => funext fun e => pay6_apply v4 j e
  rw [hq, hk, hv]

end Cert.KernelIdeal.KValue

end
-- ==== Proof.FinalValue.lean ====
/-
  From blocks to whole arrays, over the extended reals.

  Each of the two pipelines walks a grid; at every grid point its body reads one block of each input array and
  writes one block of the output array.  Here each output array after the whole walk is identified, index by index,
  with ONE function of the input arrays as the pipeline finds them:

  * the projection pipeline cuts the 8192 rows into eight blocks of 1024 and multiplies each by the whole weight, so
    the output at `(r, g)` is the inner product of row `r` with weight row `g`;
  * the attention pipeline, at grid point `(b, sq)`, reads 1024 query rows of batch `b` (the first third of the
    columns) and all 2048 key and value rows of that batch (the second and third thirds), so the output at
    `(b, s, f)` is the attention output row of query `(b, s)` against the keys and values of batch `b`.

  Two facts give this: every block a point writes back is the restriction of the one function to the block's
  rectangle, and the blocks cover the array (the point covering row `r` is `r / 1024`).
-/
import proofs.«149045_j6854767804979_2_alg».proof.Proof.FrameBody0I
import proofs.«149045_j6854767804979_2_alg».proof.Proof.FrameBody1I
import proofs.«149045_j6854767804979_2_alg».proof.Proof.KernelValue0
import proofs.«149045_j6854767804979_2_alg».proof.Proof.KernelValue
import proofs.«149045_j6854767804979_2_alg».proof.Proof.AttnSpec
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A block read through zero offsets is the block. -/
theorem zero_offsets2 : (![0, 0] : Fin 2 → Nat) = fun _ => 0 := funext fun a => by fin_cases a <;> rfl

/-! ## The projection pipeline -/

/-- The projection of every row by every weight row. -/
def projAll (X : S8192x768.Idx → EReal) (W : S2304x768.Idx → EReal) : S8192x2304.Idx → EReal := fun i =>
  ∑ e : Fin 768, X (ix2 (⟨(i 0).val, (i 0).isLt⟩ : Fin 8192) e) * W (ix2 (⟨(i 1).val, (i 1).isLt⟩ : Fin 2304) e)

/-- The printed index maps over the eight grid points: the row blocks of input and output move together, everything
    else sits at block 0, and the output's row-block index stays below 8. -/
theorem index_maps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block is some grid point's. -/
theorem index_onto0 : ∀ q : Fin 8, ∃ t : Fin cfg0.N, win0_2.index t = ![q.val, 0] :=
  (by decide +kernel : ∀ q : Fin 8, ∃ t : Fin grid0.N, win0_2.index t = ![q.val, 0])

/-- What grid point `t` writes back is block `t` of the projection of the arrays as the pipeline finds them. -/
theorem flushed0_eq (c : Dev nD) (t : Fin cfg0.N) :
    (Fr.dat0 (F := Ideal) V c).flushed 2 t
      = ((cfg0.win 2).blk t).view.read (Elt Ideal) (projAll (V c main_v1) (V c main_v2)) := by
  show (cfg0.win 2).cut (grid0.coords t) ((Fr.dat0 (F := Ideal) V c).after 2 t) = _
  rw [Fr.after0_2]
  unfold Fr.out0_2
  rw [View.canon_unit_zero zero_offsets2]
  simp only [View.ld_unit_zero (S := S1024x768) zero_offsets2, View.ld_unit_zero (S := S2304x768) zero_offsets2]
  obtain ⟨e0, e1, e2, e3, e4, e5⟩ := index_maps0 t
  funext j
  obtain ⟨p, g, rfl⟩ : ∃ (p : Fin 1024) (g : Fin 2304), j = ix2 p g := ⟨j 0, j 1, eq_ix2 j⟩
  show Body.val0 (F := Ideal) (Fr.iblk0 V c 0 t) (Fr.iblk0 V c 1 t) (ix2 p g)
    = projAll (V c main_v1) (V c main_v2) (((cfg0.win 2).blk t).view.emb (ix2 p g))
  refine (KValue.val0_apply (Fr.iblk0 V c 0 t) (Fr.iblk0 V c 1 t) p g).trans ?_
  unfold projAll
  refine Finset.sum_congr rfl fun e _ => ?_
  have hx : (Fr.iblk0 V c 0 t : Vec Ideal S1024x768 .bf16) (ix2 p e)
      = V c main_v1 (ix2 (⟨((((cfg0.win 2).blk t).view.emb (ix2 p g)) 0).val, ((((cfg0.win 2).blk t).view.emb (ix2 p g)) 0).isLt⟩ : Fin 8192) e) := by
    show V c main_v1 (((cfg0.win 0).blk t).view.emb (ix2 p e)) = _
    refine congrArg (V c main_v1) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 768 + 1 * e.val = e.val
      omega
  have hw : (Fr.iblk0 V c 1 t : Vec Ideal S2304x768 .bf16) (ix2 g e)
      = V c main_v2 (ix2 (⟨((((cfg0.win 2).blk t).view.emb (ix2 p g)) 1).val, ((((cfg0.win 2).blk t).view.emb (ix2 p g)) 1).isLt⟩ : Fin 2304) e) := by
    show V c main_v2 (((cfg0.win 1).blk t).view.emb (ix2 g e)) = _
    refine congrArg (V c main_v2) (funext fun a => Fin.ext ?_)
    match a with
    | ⟨0, _⟩ =>
      show win0_1.index t (0 : Fin 2) * 2304 + 1 * g.val = win0_2.index t (1 : Fin 2) * 2304 + 1 * g.val
      omega
    | ⟨1, _⟩ =>
      show win0_1.index t (1 : Fin 2) * 768 + 1 * e.val = e.val
      omega
  rw [hx, hw]

/-- An index of the output array is in point `t`'s block iff each coordinate is in the block's range on its axis. -/
theorem mem_block0 (t : Fin cfg0.N) (i : S8192x2304.Idx) :
    i ∈ ((cfg0.win 2).blk t).view.set ↔ ∀ a : Fin 2, win0_2.index t a * S1024x2304.size a ≤ (i a).val
      ∧ (i a).val < win0_2.index t a * S1024x2304.size a + S1024x2304.size a := by
  show i ∈ ((View.whole main_v3).slice (win0_2.rect t)).set ↔ _
  rw [View.set_slice_whole, Rect.mem_set_unit]
  exact Iff.rfl

/-- The blocks cover the output array: row `r` lies in the block of point `r / 1024`. -/
theorem cover0 (i : S8192x2304.Idx) :
    ∃ t : Fin cfg0.N, (cfg0.win 2).flush t = true ∧ i ∈ ((cfg0.win 2).blk t).view.set := by
  have hi0 : (i 0).val < 8192 := (i 0).isLt
  have hi1 : (i 1).val < 2304 := (i 1).isLt
  obtain ⟨t, ht⟩ := index_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2304 ≤ (i 1).val ∧ (i 1).val < win0_2.index t (1 : Fin 2) * 2304 + 2304
    omega

/-- The projection pipeline's two input arrays as it finds them, and its output array as it leaves it, by coordinates. -/
abbrev rows0 (c : Dev nD) : Fin 8192 → Fin 768 → EReal := fun r e => V c main_v1 (ix2 r e)
abbrev weights0 (c : Dev nD) : Fin 2304 → Fin 768 → EReal := fun g e => V c main_v2 (ix2 g e)
abbrev result0 (c : Dev nD) : Fin 8192 → Fin 2304 → EReal := fun r g => (Fr.dat0 (F := Ideal) V c).arrAt 2 cfg0.N (ix2 r g)

/-- The projection pipeline's output array after the walk, at `(r, g)`: the inner product of row `r` of the rows with
    row `g` of the weights. -/
theorem final0 (c : Dev nD) (r : Fin 8192) (g : Fin 2304) :
    result0 V c r g = ∑ e : Fin 768, rows0 V c r e * weights0 V c g e := by
  show (Fr.dat0 (F := Ideal) V c).arrAt 2 cfg0.N (ix2 r g) = _
  rw [(Fr.dat0 (F := Ideal) V c).arrAt_eq_of_cover 2 (projAll (V c main_v1) (V c main_v2))
    (fun t _ => flushed0_eq V c t) cover0]
  rfl

/-! ## The attention pipeline -/

theorem zero_offsets3 : (![0, 0, 0] : Fin 3 → Nat) = fun _ => 0 := funext fun a => by fin_cases a <;> rfl

/-- The attention output of every query row: at `(b, s, f)`, column `f` of the output row of query `(b, s)` (the first
    third of the joint projection's columns) against the keys and the values of batch `b` (the second and the last
    third), with the output weights `W` and the bias row `B`. -/
def attnAll (X : S4x2048x2304.Idx → EReal) (W : S768x768.Idx → EReal) (B : S1x768.Idx → EReal) :
    S4x2048x768.Idx → EReal := fun i =>
  Cert.Attn.rowOutK
    (fun e => X (ix3 (⟨(i 0).val, (i 0).isLt⟩ : Fin 4) (⟨(i 1).val, (i 1).isLt⟩ : Fin 2048) (Cert.Attn.third 0 e)))
    (fun j e => X (ix3 (⟨(i 0).val, (i 0).isLt⟩ : Fin 4) j (Cert.Attn.third 1 e)))
    (fun j e => X (ix3 (⟨(i 0).val, (i 0).isLt⟩ : Fin 4) j (Cert.Attn.third 2 e)))
    (fun f e => W (ix2 f e)) (fun f => B (ix2 (0 : Fin 1) f)) (⟨(i 2).val, (i 2).isLt⟩ : Fin 768)

/-- One stored block at `(0, p, f)`, when the five loaded blocks are the query row `(b, s)`, the keys and the values of
    batch `b`, the output weights and the bias row: the attention output at `(b, s, f)`. -/
theorem block_value1 (X : S4x2048x2304.Idx → EReal) (W : S768x768.Idx → EReal) (B : S1x768.Idx → EReal)
    (v0 : Vec Ideal S1x1024x768 .bf16) (v2 v4 : Vec Ideal S1x2048x768 .bf16) (v247 : Vec Ideal S768x768 .bf16)
    (v250 : Vec Ideal S1x768 .f32) (b : Fin 4) (s : Fin 2048) (p : Fin 1024) (f : Fin 768)
    (h0 : ∀ e : Fin 768, v0 (ix3 (0 : Fin 1) p e) = X (ix3 b s (Cert.Attn.third 0 e)))
    (h2 : ∀ (j : Fin 2048) (e : Fin 768), v2 (ix3 (0 : Fin 1) j e) = X (ix3 b j (Cert.Attn.third 1 e)))
    (h4 : ∀ (j : Fin 2048) (e : Fin 768), v4 (ix3 (0 : Fin 1) j e) = X (ix3 b j (Cert.Attn.third 2 e)))
    (h247 : ∀ (g e : Fin 768), v247 (ix2 g e) = W (ix2 g e))
    (h250 : ∀ g : Fin 768, v250 (ix2 (0 : Fin 1) g) = B (ix2 (0 : Fin 1) g)) :
    Body.val1 (F := Ideal) v0 v2 v4 v247 v250 (ix3 (0 : Fin 1) p f) = attnAll X W B (ix3 b s f) := by
  rw [KValue.val1_apply]
  have e0 : (fun e : Fin 768 => v0 (ix3 (0 : Fin 1) p e)) = fun e => X (ix3 b s (Cert.Attn.third 0 e)) := funext h0
  have e2 : (fun (j : Fin 2048) (e : Fin 768) => v2 (ix3 (0 : Fin 1) j e)) = fun j e => X (ix3 b j (Cert.Attn.third 1 e)) :=
    funext fun j => funext fun e => h2 j e
  have e4 : (fun (j : Fin 2048) (e : Fin 768) => v4 (ix3 (0 : Fin 1) j e)) = fun j e => X (ix3 b j (Cert.Attn.third 2 e)) :=
    funext fun j => funext fun e => h4 j e
  have e247 : (fun (g e : Fin 768) => v247 (ix2 g e)) = fun g e => W (ix2 g e) := funext fun g => funext fun e => h247 g e
  have e250 : (fun g : Fin 768 => v250 (ix2 (0 : Fin 1) g)) = fun g => B (ix2 (0 : Fin 1) g) := funext h250
  rw [e0, e2, e4, e247, e250]
  rfl

/-- The printed index maps over the eight grid points: the batch index is shared by the three windows on the joint
    projection and the output; the query rows move with the output's row block; the three windows sit on the column
    thirds 0, 1, 2; the weights and the bias sit at block 0; the output's indices stay in their ranges. -/
theorem index_maps1 : ∀ t : Fin cfg1.N, win1_0.index t (0 : Fin 3) = win1_5.index t (0 : Fin 3)
    ∧ win1_0.index t (1 : Fin 3) = win1_5.index t (1 : Fin 3)
    ∧ win1_0.index t (2 : Fin 3) = 0
    ∧ win1_1.index t (0 : Fin 3) = win1_5.index t (0 : Fin 3)
    ∧ win1_1.index t (1 : Fin 3) = 0
    ∧ win1_1.index t (2 : Fin 3) = 1
    ∧ win1_2.index t (0 : Fin 3) = win1_5.index t (0 : Fin 3)
    ∧ win1_2.index t (1 : Fin 3) = 0
    ∧ win1_2.index t (2 : Fin 3) = 2
    ∧ win1_3.index t (0 : Fin 2) = 0
    ∧ win1_3.index t (1 : Fin 2) = 0
    ∧ win1_4.index t (0 : Fin 2) = 0
    ∧ win1_4.index t (1 : Fin 2) = 0
    ∧ win1_5.index t (2 : Fin 3) = 0
    ∧ win1_5.index t (0 : Fin 3) ≤ 3
    ∧ win1_5.index t (1 : Fin 3) ≤ 1 :=
  (by decide +kernel : ∀ t : Fin grid1.N, _)

/-- Every (batch, row block) pair is some grid point's. -/
theorem index_onto1 : ∀ (q0 : Fin 4) (q1 : Fin 2), ∃ t : Fin cfg1.N, win1_5.index t = ![q0.val, q1.val, 0] :=
  (by decide +kernel : ∀ (q0 : Fin 4) (q1 : Fin 2), ∃ t : Fin grid1.N, win1_5.index t = ![q0.val, q1.val, 0])

/-- What grid point `t` writes back is block `t` of the attention output of the arrays as the pipeline finds them. -/
theorem flushed1_eq (c : Dev nD) (t : Fin cfg1.N) :
    (Fr.dat1 (F := Ideal) V c).flushed 5 t
      = ((cfg1.win 5).blk t).view.read (Elt Ideal) (attnAll (V c main_v4) (V c main_v5) (V c main_v6)) := by
  show (cfg1.win 5).cut (grid1.coords t) ((Fr.dat1 (F := Ideal) V c).after 5 t) = _
  rw [Fr.after1_5]
  unfold Fr.out1_5
  rw [View.canon_unit_zero zero_offsets3]
  simp only [View.ld_unit_zero (S := S1x1024x768) zero_offsets3, View.ld_unit_zero (S := S1x2048x768) zero_offsets3,
    View.ld_unit_zero (S := S768x768) zero_offsets2, View.ld_unit_zero (S := S1x768) zero_offsets2]
  obtain ⟨a00, a01, a02, a10, a11, a12, a20, a21, a22, a30, a31, a40, a41, o2, o0, o1⟩ := index_maps1 t
  funext j
  obtain ⟨z, p, f, rfl⟩ : ∃ (z : Fin 1) (p : Fin 1024) (f : Fin 768), j = ix3 z p f := ⟨j 0, j 1, j 2, eq_ix3 j⟩
  obtain rfl : z = 0 := Subsingleton.elim _ _
  have hp := p.isLt
  show Body.val1 (F := Ideal) (Fr.iblk1 V c 0 t) (Fr.iblk1 V c 1 t) (Fr.iblk1 V c 2 t) (Fr.iblk1 V c 3 t) (Fr.iblk1 V c 4 t)
      (ix3 (0 : Fin 1) p f)
    = attnAll (V c main_v4) (V c main_v5) (V c main_v6) (((cfg1.win 5).blk t).view.emb (ix3 (0 : Fin 1) p f))
  have hemb : ((cfg1.win 5).blk t).view.emb (ix3 (0 : Fin 1) p f)
      = ix3 (⟨win1_5.index t (0 : Fin 3), by omega⟩ : Fin 4)
          (⟨win1_5.index t (1 : Fin 3) * 1024 + p.val, by omega⟩ : Fin 2048) f := funext fun a => Fin.ext (by
    match a with
    | ⟨0, _⟩ =>
      show win1_5.index t (0 : Fin 3) * 1 + 1 * 0 = win1_5.index t (0 : Fin 3)
      omega
    | ⟨1, _⟩ =>
      show win1_5.index t (1 : Fin 3) * 1024 + 1 * p.val = win1_5.index t (1 : Fin 3) * 1024 + p.val
      omega
    | ⟨2, _⟩ =>
      show win1_5.index t (2 : Fin 3) * 768 + 1 * f.val = f.val
      omega)
  rw [hemb]
  refine block_value1 (V c main_v4) (V c main_v5) (V c main_v6) (Fr.iblk1 V c 0 t) (Fr.iblk1 V c 1 t) (Fr.iblk1 V c 2 t)
    (Fr.iblk1 V c 3 t) (Fr.iblk1 V c 4 t) _ _ p f ?_ ?_ ?_ ?_ ?_
  · intro e
    show V c main_v4 (((cfg1.win 0).blk t).view.emb (ix3 (0 : Fin 1) p e)) = _
    refine congrArg (V c main_v4) (funext fun a => Fin.ext ?_)
    match a with
    | ⟨0, _⟩ =>
      show win1_0.index t (0 : Fin 3) * 1 + 1 * 0 = win1_5.index t (0 : Fin 3)
      omega
    | ⟨1, _⟩ =>
      show win1_0.index t (1 : Fin 3) * 1024 + 1 * p.val = win1_5.index t (1 : Fin 3) * 1024 + p.val
      omega
    | ⟨2, _⟩ =>
      show win1_0.index t (2 : Fin 3) * 768 + 1 * e.val = 0 * 768 + e.val
      omega
  · intro k e
    show V c main_v4 (((cfg1.win 1).blk t).view.emb (ix3 (0 : Fin 1) k e)) = _
    refine congrArg (V c main_v4) (funext fun a => Fin.ext ?_)
    match a with
    | ⟨0, _⟩ =>
      show win1_1.index t (0 : Fin 3) * 1 + 1 * 0 = win1_5.index t (0 : Fin 3)
      omega
    | ⟨1, _⟩ =>
      show win1_1.index t (1 : Fin 3) * 2048 + 1 * k.val = k.val
      omega
    | ⟨2, _⟩ =>
      show win1_1.index t (2 : Fin 3) * 768 + 1 * e.val = 1 * 768 + e.val
      omega
  · intro k e
    show V c main_v4 (((cfg1.win 2).blk t).view.emb (ix3 (0 : Fin 1) k e)) = _
    refine congrArg (V c main_v4) (funext fun a => Fin.ext ?_)
    match a with
    | ⟨0, _⟩ =>
      show win1_2.index t (0 : Fin 3) * 1 + 1 * 0 = win1_5.index t (0 : Fin 3)
      omega
    | ⟨1, _⟩ =>
      show win1_2.index t (1 : Fin 3) * 2048 + 1 * k.val = k.val
      omega
    | ⟨2, _⟩ =>
      show win1_2.index t (2 : Fin 3) * 768 + 1 * e.val = 2 * 768 + e.val
      omega
  · intro g e
    show V c main_v5 (((cfg1.win 3).blk t).view.emb (ix2 g e)) = _
    refine congrArg (V c main_v5) (funext fun a => Fin.ext ?_)
    match a with
    | ⟨0, _⟩ =>
      show win1_3.index t (0 : Fin 2) * 768 + 1 * g.val = g.val
      omega
    | ⟨1, _⟩ =>
      show win1_3.index t (1 : Fin 2) * 768 + 1 * e.val = e.val
      omega
  · intro g
    show V c main_v6 (((cfg1.win 4).blk t).view.emb (ix2 (0 : Fin 1) g)) = _
    refine congrArg (V c main_v6) (funext fun a => Fin.ext ?_)
    match a with
    | ⟨0, _⟩ =>
      show win1_4.index t (0 : Fin 2) * 1 + 1 * 0 = 0
      omega
    | ⟨1, _⟩ =>
      show win1_4.index t (1 : Fin 2) * 768 + 1 * g.val = g.val
      omega

/-- An index of the output array is in point `t`'s block iff each coordinate is in the block's range on its axis. -/
theorem mem_block1 (t : Fin cfg1.N) (i : S4x2048x768.Idx) :
    i ∈ ((cfg1.win 5).blk t).view.set ↔ ∀ a : Fin 3, win1_5.index t a * S1x1024x768.size a ≤ (i a).val
      ∧ (i a).val < win1_5.index t a * S1x1024x768.size a + S1x1024x768.size a := by
  show i ∈ ((View.whole main_v7).slice (win1_5.rect t)).set ↔ _
  rw [View.set_slice_whole, Rect.mem_set_unit]
  exact Iff.rfl

/-- The blocks cover the output array: `(b, s, f)` lies in the block of the point `(b, s / 1024)`. -/
theorem cover1 (i : S4x2048x768.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 768 := (i 2).isLt
  obtain ⟨t, ht⟩ := index_onto1 ⟨(i 0).val, hi0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, flush1_5 t, ?_⟩
  rw [mem_block1]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 1024 ≤ (i 1).val ∧ (i 1).val < win1_5.index t (1 : Fin 3) * 1024 + 1024
    omega
  | ⟨2, _⟩ =>
    show win1_5.index t (2 : Fin 3) * 768 ≤ (i 2).val ∧ (i 2).val < win1_5.index t (2 : Fin 3) * 768 + 768
    omega

/-- The attention pipeline's output array as it leaves it, by coordinates. -/
abbrev result1 (c : Dev nD) : Fin 4 → Fin 2048 → Fin 768 → EReal :=
  fun b s f => (Fr.dat1 (F := Ideal) V c).arrAt 5 cfg1.N (ix3 b s f)

/-- The attention pipeline's output array after the walk, at `(b, s, f)`: the attention output row of query `(b, s)`
    against the keys and the values of batch `b`, read off the joint projection's thirds. -/
theorem final1 (c : Dev nD) (b : Fin 4) (s : Fin 2048) (f : Fin 768) :
    result1 V c b s f
      = Cert.Attn.rowOutK (fun e => V c main_v4 (ix3 b s (Cert.Attn.third 0 e)))
          (fun j e => V c main_v4 (ix3 b j (Cert.Attn.third 1 e)))
          (fun j e => V c main_v4 (ix3 b j (Cert.Attn.third 2 e)))
          (fun f e => V c main_v5 (ix2 f e)) (fun f => V c main_v6 (ix2 (0 : Fin 1) f)) f := by
  show (Fr.dat1 (F := Ideal) V c).arrAt 5 cfg1.N (ix3 b s f) = _
  rw [(Fr.dat1 (F := Ideal) V c).arrAt_eq_of_cover 5 (attnAll (V c main_v4) (V c main_v5) (V c main_v6))
    (fun t _ => flushed1_eq V c t) cover1]
  rfl

end Cert.KernelIdeal.Final

end
-- ==== Proof.KernelFinal.lean ====
/-
  The result array of the whole run as one function of the four argument arrays, over the extended reals.

  The run is four stretches: host lines, the projection kernel's region, host lines, the attention kernel's region.
  The attention region leaves in the result array the attention output of the arrays it finds; those are what the
  host lines between the regions make of the projection region's output and of two arguments; the projection region's
  output is the product of what the first host lines make of the other two arguments. Followed index by index the four
  stretches compose to the attention output of the joint projection of the arguments.
-/
import proofs.«149045_j6854767804979_2_alg».proof.Proof.FrameRunI
import proofs.«149045_j6854767804979_2_alg».proof.Proof.HostReads
import proofs.«149045_j6854767804979_2_alg».proof.Proof.FinalValue
import proofs.«149045_j6854767804979_2_alg».proof.Proof.AttnSpec
import Idealize.ShloMosaic.Lib.ValueIdx

set_option synthInstance.maxSize 4096

noncomputable section

namespace Cert.KernelIdeal.Final2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The joint projection as the attention region finds it, at (b, s, g): the inner product of row (b, s) of the input
    with row g of the joint weight, both as launched. The host lines between the regions re-lay the projection
    kernel's output by batch; that output is the product of the re-laid input with the weight; and the host lines
    before the first region re-lay the input and keep the weight. -/
theorem proj_value (m : (ℓ : Loc nD τ sig) → Buf (Elt Ideal) ℓ) (c : Dev nD) (b : Fin 4) (s : Fin 2048) (g : Fin 2304) :
    (Fr.V3 m c main_v4 (ix3 b s g) : EReal)
      = Cert.Attn.proj (fun b s e => m ((c.tc : Thread nD τ).loc main_arg0) (ix3 b s e))
          (fun g e => m ((c.tc : Thread nD τ).loc main_arg1) (ix2 g e)) b s g := by
  refine (Host.after1_v4 (Fr.W2 m c) b s g).trans ?_
  have hw : Fr.W2 m c (Proc.devRef .tc main_v3) = (Fr.dat0 (Fr.V1 m) c).arrAt 2 cfg0.N := Fr.W2_arr m c 2
  refine (congrFun hw _).trans ?_
  refine (Final.final0 (Fr.V1 m) c _ g).trans ?_
  unfold Cert.Attn.proj
  refine Finset.sum_congr rfl fun e _ => ?_
  have h1 : Final.rows0 (Fr.V1 m) c (⟨b.val * 2048 + s.val, by omega⟩ : Fin 8192) e
      = m ((c.tc : Thread nD τ).loc main_arg0) (ix3 b s e) := Host.after0_v1 (Fr.W0 m c) b s e
  have h2 : Final.weights0 (Fr.V1 m) c g e = m ((c.tc : Thread nD τ).loc main_arg1) (ix2 g e) :=
    Host.after0_v2 (Fr.W0 m c) g e
  exact congrArg₂ (fun x y : EReal => x * y) h1 h2

/-- The output weight as the attention region finds it: as launched (no kernel and no earlier host line writes it). -/
theorem v5_value (m : (ℓ : Loc nD τ sig) → Buf (Elt Ideal) ℓ) (c : Dev nD) (f e : Fin 768) :
    (Fr.V3 m c main_v5 (ix2 f e) : EReal) = m ((c.tc : Thread nD τ).loc main_arg2) (ix2 f e) := by
  refine (Host.after1_v5 (Fr.W2 m c) f e).trans ?_
  have h : Fr.W2 m c (Proc.devRef .tc main_arg2) = m ((c.tc : Thread nD τ).loc main_arg2) :=
    (Fr.W2_of_ne m c main_arg2 (by decide)).trans
      ((StableHlo.after_of_writes_sub hostOps0 _ hostOps0_writes (by decide)).trans rfl)
  exact congrFun h _

/-- The bias row as the attention region finds it: the bias as launched. -/
theorem v6_value (m : (ℓ : Loc nD τ sig) → Buf (Elt Ideal) ℓ) (c : Dev nD) (f : Fin 768) :
    (Fr.V3 m c main_v6 (ix2 (0 : Fin 1) f) : EReal) = m ((c.tc : Thread nD τ).loc main_arg3) (ix1 f) := by
  refine (Host.after1_v6 (Fr.W2 m c) f).trans ?_
  have h : Fr.W2 m c (Proc.devRef .tc main_arg3) = m ((c.tc : Thread nD τ).loc main_arg3) :=
    (Fr.W2_of_ne m c main_arg3 (by decide)).trans
      ((StableHlo.after_of_writes_sub hostOps0 _ hostOps0_writes (by decide)).trans rfl)
  exact congrFun h _

/-- THE RESULT ARRAY. After the run the result array at (b, s, f) is the attention output of the four argument arrays
    as launched, in the arrangement with the reciprocal taken last: the attention region's output is that arrangement
    of its own input arrays, and those are the joint projection of the arguments, the output weight and the bias. -/
theorem kernel_value (m : (ℓ : Loc nD τ sig) → Buf (Elt Ideal) ℓ) (c : Dev nD) (b : Fin 4) (s : Fin 2048) (f : Fin 768) :
    (Fr.dat1 (F := Ideal) (Fr.V3 m) c).arrAt 5 cfg1.N (ix3 b s f)
      = Cert.Attn.outK (fun b s e => m ((c.tc : Thread nD τ).loc main_arg0) (ix3 b s e))
          (fun g e => m ((c.tc : Thread nD τ).loc main_arg1) (ix2 g e))
          (fun f e => m ((c.tc : Thread nD τ).loc main_arg2) (ix2 f e))
          (fun f => m ((c.tc : Thread nD τ).loc main_arg3) (ix1 f)) b s f := by
  refine (Final.final1 (Fr.V3 m) c b s f).trans ?_
  unfold Cert.Attn.outK
  have hq : (fun e => (Fr.V3 m c main_v4 (ix3 b s (Cert.Attn.third 0 e)) : EReal))
      = fun e => Cert.Attn.proj (fun b s e => m ((c.tc : Thread nD τ).loc main_arg0) (ix3 b s e))
          (fun g e => m ((c.tc : Thread nD τ).loc main_arg1) (ix2 g e)) b s (Cert.Attn.third 0 e) :=
    funext fun e => proj_value m c b s _
  have hk : (fun j e => (Fr.V3 m c main_v4 (ix3 b j (Cert.Attn.third 1 e)) : EReal))
      = fun j e => Cert.Attn.proj (fun b s e => m ((c.tc : Thread nD τ).loc main_arg0) (ix3 b s e))
          (fun g e => m ((c.tc : Thread nD τ).loc main_arg1) (ix2 g e)) b j (Cert.Attn.third 1 e) :=
    funext fun j => funext fun e => proj_value m c b j _
  have hv : (fun j e => (Fr.V3 m c main_v4 (ix3 b j (Cert.Attn.third 2 e)) : EReal))
      = fun j e => Cert.Attn.proj (fun b s e => m ((c.tc : Thread nD τ).loc main_arg0) (ix3 b s e))
          (fun g e => m ((c.tc : Thread nD τ).loc main_arg1) (ix2 g e)) b j (Cert.Attn.third 2 e) :=
    funext fun j => funext fun e => proj_value m c b j _
  have hw : (fun f e => (Fr.V3 m c main_v5 (ix2 f e) : EReal))
      = fun f e => m ((c.tc : Thread nD τ).loc main_arg2) (ix2 f e) :=
    funext fun f => funext fun e => v5_value m c f e
  have hb : (fun f => (Fr.V3 m c main_v6 (ix2 (0 : Fin 1) f) : EReal))
      = fun f => m ((c.tc : Thread nD τ).loc main_arg3) (ix1 f) :=
    funext fun f => v6_value m c f
  exact congrArg (fun W => W f) (congr (congr (congr (congr (congrArg Cert.Attn.rowOutK hq) hk) hv) hw) hb)

end Cert.KernelIdeal.Final2

end
-- ==== Proof.Algebraic.lean ====
/-
  The value claim: at the extended reals the idealized kernel and the reference end with equal results.

  The kernel's result array, read at (b, s, f), is the attention row in the arrangement that multiplies the weighted
  sum of the values by the reciprocal of the sum of the weights; the reference's is the arrangement that divides each
  weight first.  Under the precondition every entry of the input and of the joint projection's weights is a real
  number, and on real entries the two arrangements agree.
-/
import proofs.«149045_j6854767804979_2_alg».proof.Defs
import proofs.«149045_j6854767804979_2_alg».proof.Proof.Gen.Pre_finite_inputs
import proofs.«149045_j6854767804979_2_alg».proof.Proof.Gen.ReferenceIdeal.Read
import proofs.«149045_j6854767804979_2_alg».proof.Proof.FrameRunI
import proofs.«149045_j6854767804979_2_alg».proof.Proof.RefValue
import proofs.«149045_j6854767804979_2_alg».proof.Proof.SoftmaxLaw
import proofs.«149045_j6854767804979_2_alg».proof.Proof.FiniteArgs
import proofs.«149045_j6854767804979_2_alg».proof.Proof.KernelFinal

noncomputable section

namespace Cert.Proof.Value

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => (Cert.KernelIdeal.Fr.dat1 (F := Ideal) (Cert.KernelIdeal.Fr.V3 m) c).arrAt 5 Cert.KernelIdeal.cfg1.N,
    Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2]
  funext i
  obtain ⟨b, s, f, rfl⟩ : ∃ (b : Fin 4) (s : Fin 2048) (f : Fin 768), i = ix3 b s f := ⟨i 0, i 1, i 2, eq_ix3 i⟩
  refine (Cert.ReferenceIdeal.RefValue.ref_value _ _ _ _ b s f).trans ?_
  refine Eq.trans ?_ (Cert.KernelIdeal.Final2.kernel_value m c b s f).symm
  exact (congrFun (congrFun (congrFun (Cert.Attn.outK_eq_outR _ _
    (fun b s e => Cert.Finite.arg0_real m hpre c (ix3 b s e))
    (fun g e => Cert.Finite.arg1_real m hpre c (ix2 g e)) _ _) b) s) f).symm

end Cert.Proof.Value

end
-- ==== Proof.lean ====
/-
  Multi-head attention as two pipelined kernels against its plain formulation: the certificate.

  The kernel program projects the input to queries, keys and values in one pipelined matrix product, then, per batch
  and per tile of query rows, computes for each of the twelve heads the scaled logits against all keys, shifts them
  by their row maximum, exponentiates, takes the weighted sum of the values and multiplies it by the reciprocal of the
  sum of the weights, concatenates the heads, and applies the output projection and bias.  The reference computes the
  same attention with the weights normalised first.  The frames follow each program's run from the launch memory; the
  idealized kernel is the kernel's own text; and at the extended reals, for finite inputs, the two results agree entry
  by entry because multiplication by a real distributes over a finite sum of reals.
-/
import proofs.«149045_j6854767804979_2_alg».proof.Defs
import proofs.«149045_j6854767804979_2_alg».proof.Proof.Gen.Kernel
import proofs.«149045_j6854767804979_2_alg».proof.Proof.Gen.KernelIdeal
import proofs.«149045_j6854767804979_2_alg».proof.Proof.Gen.ReferenceIdeal
import proofs.«149045_j6854767804979_2_alg».proof.Proof.Gen.Pre_finite_inputs
import proofs.«149045_j6854767804979_2_alg».proof.Proof.Gen.ReferenceIdeal.Run
import proofs.«149045_j6854767804979_2_alg».proof.Proof.Gen.ReferenceIdeal.Read
import proofs.«149045_j6854767804979_2_alg».proof.Proof.Frames
import proofs.«149045_j6854767804979_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Frames.frame_referenceIdeal,
    Cert.Proof.Frames.preserves, Cert.Proof.Value.algebraic⟩

end Cert.Proof

end
